-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S1600000 : Shape := ⟨1, ![1600000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x2 .f32) (main_arg14 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg13
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x16 .f32) (main_arg1 : IVec S2x1600000 32) (main_arg2 : FVec F S1600000 .f32) (main_arg3 : FVec F S16x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x2 .f32) (main_arg14 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x16 : Shape := ⟨2, ![100000, 16]⟩
abbrev S2x1600000 : Shape := ⟨2, ![2, 1600000]⟩
abbrev S1600000 : Shape := ⟨1, ![1600000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S100000x128 : Shape := ⟨2, ![100000, 128]⟩
abbrev S2000x16 : Shape := ⟨2, ![2000, 16]⟩
abbrev S2000x128 : Shape := ⟨2, ![2000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S2000x1 : Shape := ⟨2, ![2000, 1]⟩
abbrev S100000x2 : Shape := ⟨2, ![100000, 2]⟩
abbrev S2000x2 : Shape := ⟨2, ![2000, 2]⟩
abbrev S1x2 : Shape := ⟨2, ![1, 2]⟩
abbrev S2000 : Shape := ⟨1, ![2000]⟩

abbrev nBuf : Space → Nat
  | .hbm => 86
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S1600000, .f32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000x128, .bf16⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000, .f32⟩
  | .hbm, ⟨49, _⟩ => ⟨S100000x1, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .bf16⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .bf16⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .bf16⟩
  | .hbm, ⟨78, _⟩ => ⟨S1600000x128, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x2, .f32⟩
  | .local _ .vmem, ⟨0, _⟩ => ⟨S2000x16, .f32⟩
  | .local _ .vmem, ⟨1, _⟩ => ⟨S2000x16, .f32⟩
  | .local _ .vmem, ⟨2, _⟩ => ⟨S16x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x1, .f32⟩
  | .local _ .vmem, ⟨14, _⟩ => ⟨S2000x1, .f32⟩
  | .local _ .vmem, ⟨15, _⟩ => ⟨S128, .f32⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x128, .bf16⟩
  | .local _ .vmem, ⟨22, _⟩ => ⟨S2000x128, .bf16⟩
  | .local _ .vmem, ⟨23, _⟩ => ⟨S2000x1, .f32⟩
  | .local _ .vmem, ⟨24, _⟩ => ⟨S2000x1, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128x2, .f32⟩
  | .local _ .vmem, ⟨29, _⟩ => ⟨S2, .f32⟩
  | .local _ .vmem, ⟨30, _⟩ => ⟨S2000x2, .f32⟩
  | .local _ .vmem, ⟨31, _⟩ => ⟨S2000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .bf16 = 32 ∨ (Rect.block (s := S100000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .bf16 = 32 ∨ (Rect.block (s := S100000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2.size a ≤ S2.size a
  hwx2_7 : ∀ i : grid2.Coords, EltTy.bits .f32 = 32 ∨ (Rect.block (s := S2) S2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x2.size a ≤ S100000x2.size a
  hwx2_8 : ∀ i : grid2.Coords, EltTy.bits .f32 = 32 ∨ (Rect.block (s := S100000x2) S2000x2.size (cc2_transform_8 i) (hinb2_8 i)).WholeWords (EltTy.packing .f32)

variable [Facts₀]

def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S2000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S1600000 : Shape := ⟨1, ![1600000]⟩
abbrev S16x128 : Shape := ⟨2, ![16, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x2 : Shape := ⟨2, ![100000, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S100000x16, .f32⟩
  | 1 => ⟨S2x1600000, .i32⟩
  | 2 => ⟨S1600000, .f32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x2, .f32⟩
  | 14 => ⟨S2, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S1x1600000, .i32⟩
  | 28 => ⟨S1600000, .i32⟩
  | 29 => ⟨S1x1600000, .i32⟩
  | 30 => ⟨S1600000, .i32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S1x1600000, .i32⟩
  | 88 => ⟨S1600000, .i32⟩
  | 89 => ⟨S1x1600000, .i32⟩
  | 90 => ⟨S1600000, .i32⟩
  | 91 => ⟨S_, .f32⟩
  | 92 => ⟨S100000, .f32⟩
  | 93 => ⟨S1600000x1, .i32⟩
  | 94 => ⟨S100000, .f32⟩
  | 95 => ⟨S_, .f32⟩
  | 96 => ⟨S100000, .f32⟩
  | 97 => ⟨S100000, .f32⟩
  | 98 => ⟨S100000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x16, .f32⟩

abbrev hbmTy0_1 (i : Nat) : BufTy := match i % 128 with
  | 0 => ⟨S1600000x128, .f32⟩
  | 1 => ⟨S1600000x128, .f32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000, .f32⟩
  | 8 => ⟨S100000x1, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x2, .f32⟩
  | 26 => ⟨S1x2, .f32⟩
  | 27 => ⟨S100000x2, .f32⟩
  | 28 => ⟨S100000x2, .f32⟩
  | 29 => ⟨S_, .f32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x2, .f32⟩
  | 36 => ⟨S100000x2, .f32⟩
  | 37 => ⟨S100000x2, .f32⟩
  | 38 => ⟨S_, .f32⟩
  | 39 => ⟨S100000, .f32⟩
  | 40 => ⟨S100000x1, .f32⟩
  | 41 => ⟨S100000x2, .f32⟩
  | 42 => ⟨S100000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_2 : Ref sig .tc := ⟨.hbm, 49, rfl⟩
abbrev main_v28 : Ref sig .tc := ⟨.hbm, 50, rfl⟩
abbrev main_v29 : Ref sig .tc := ⟨.hbm, 51, rfl⟩
abbrev main_c_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_9 : Ref sig .tc := ⟨.hbm, 99, rfl⟩
abbrev main_v69 : Ref sig .tc := ⟨.hbm, 100, rfl⟩
abbrev main_v70 : Ref sig .tc := ⟨.hbm, 101, rfl⟩
abbrev main_c_10 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_11 : Ref sig .tc := ⟨.hbm, 109, rfl⟩
abbrev main_v77 : Ref sig .tc := ⟨.hbm, 110, rfl⟩
abbrev main_v78 : Ref sig .tc := ⟨.hbm, 111, rfl⟩
abbrev main_c_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_13 : Ref sig .tc := ⟨.hbm, 120, rfl⟩
abbrev main_v86 : Ref sig .tc := ⟨.hbm, 121, rfl⟩
abbrev main_v87 : Ref sig .tc := ⟨.hbm, 122, rfl⟩
abbrev main_c_14 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_15 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call2_cst : Ref sig .tc := ⟨.hbm, 143, rfl⟩
abbrev main_call2_v0 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call3_cst : Ref sig .tc := ⟨.hbm, 150, rfl⟩
abbrev main_call3_v0 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_16 : Ref sig .tc := ⟨.hbm, 157, rfl⟩
abbrev main_v116 : Ref sig .tc := ⟨.hbm, 158, rfl⟩
abbrev main_cst_17 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_18 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000x1_S100000x2_0_1 : S100000x1.BroadcastsInDim S100000x2 (![0, 1] : Fin 2 → Fin S100000x2.rank)
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KRun.lean ====
/-
  The idealized kernel's run, with its result named.

  @main is six segments: a stretch of host operations, the encoder's region, a second stretch (degrees, edge weights,
  the first aggregation), the first layer's region, a third stretch (the second aggregation), and the decoder's
  region.  The generated frame folds the buffers' contents through the segments (W0 … W6) and reads the final state
  against the last fold W6; it keeps only the argument arrays.  Here the same run is stated once more keeping also
  the result's buffer: at the end it holds W6 at the result's reference, which the later modules compute.
-/
import proofs.«153621_j16879221473930_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; at the end the result's buffer holds the last
    fold's contents at the result's reference and every argument array is as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Gen

end
-- ==== Proof.Rows.lean ====
/-
  The network, one row at a time.

  Every dense stage of the graph network acts on one node's row and on nothing else of the node axis: a row of
  length K times a K × N weight matrix (plus a bias), the rectifier max(·, 0), the self-loop term
  agg + d · xw + b, and, at the end, the softmax of a row of two logits.  This file states those stages as
  functions of a row over the extended reals, with the entries of the weight matrices and biases read at
  `ix2` / `ix1` indices.  It imports no program: the kernel's blocks and the reference's whole arrays are both read
  against these functions, a row at a time.
-/
import Idealize.ShloMosaic.PureOps.Ideal
import Idealize.ShloMosaic.Lib.ValueIdx

noncomputable section

open scoped BigOperators

namespace Cert.GraphNet

open Idealize.ShloMosaic Idealize.ShloMosaic.ValueIdx

/-- A K × N matrix of extended reals, entry (k, n) at `ix2 k n`. -/
abbrev Mat (K N : ℕ) : Type := (⟨2, ![K, N]⟩ : Shape).Idx → EReal
/-- A vector of N extended reals, entry n at `ix1 n`. -/
abbrev Row (N : ℕ) : Type := (⟨1, ![N]⟩ : Shape).Idx → EReal

/-- The zero both programs compare against in the rectifier: the value of the all-zero 32-bit pattern. -/
def zero : EReal := Ideal.ofBits .f32 0x00000000#32
/-- The value the row maximum starts from: the pattern of minus infinity. -/
def bottom : EReal := Ideal.ofBits .f32 0xFF800000#32

/-- Entry q of the row x times the matrix W: the sum over k of x k · W (k, q). -/
def lin {K N : ℕ} (x : Fin K → EReal) (W : Mat K N) (q : Fin N) : EReal := ∑ k : Fin K, x k * W (ix2 k q)
/-- Entry q of x · W + b. -/
def aff {K N : ℕ} (x : Fin K → EReal) (W : Mat K N) (b : Row N) (q : Fin N) : EReal := lin x W q + b (ix1 q)
/-- The rectifier max(z, 0). -/
def relu (z : EReal) : EReal := max z zero

/-- The encoder followed by the first layer's weight: ((relu (x · W1 + b1)) · W2 + b2) · cW. -/
def encRow (x : Fin 16 → EReal) (W1 : Mat 16 128) (b1 : Row 128) (W2 : Mat 128 128) (b2 : Row 128) (cW : Mat 128 128) :
    Fin 128 → EReal :=
  lin (aff (fun k => relu (aff x W1 b1 k)) W2 b2) cW

/-- A layer's output at one node before the next weight: relu ((agg + d · xw) + b), d the node's squared
    inverse-root degree, agg the aggregated neighbour rows, xw the node's own transformed row. -/
def selfRow (agg xw : Fin 128 → EReal) (d : EReal) (b : Row 128) (k : Fin 128) : EReal :=
  relu ((agg k + d * xw k) + b (ix1 k))

/-- A layer's output times the next layer's weight. -/
def layerRow (agg xw : Fin 128 → EReal) (d : EReal) (b : Row 128) (W : Mat 128 128) : Fin 128 → EReal :=
  lin (selfRow agg xw d b) W

/-- The two logits of a node: (relu (h · W1 + b1)) · W2 + b2 with h the second layer's output. -/
def logits (agg xw : Fin 128 → EReal) (d : EReal) (b : Row 128) (W1 : Mat 128 128) (b1 : Row 128) (W2 : Mat 128 2)
    (b2 : Row 2) : Fin 2 → EReal :=
  aff (fun k => relu (aff (selfRow agg xw d b) W1 b1 k)) W2 b2

/-- The largest entry of a row of two, as the fold of max from minus infinity. -/
def rowMax (s : Fin 2 → EReal) : EReal := (Finset.univ : Finset (Fin 2)).fold max bottom s

/-- The softmax of a row of two: exp (s t − max s) over the sum of those exponentials. -/
def softmaxRow (s : Fin 2 → EReal) (t : Fin 2) : EReal :=
  Ideal.div (Ideal.exp (s t - rowMax s)) (∑ u : Fin 2, Ideal.exp (s u - rowMax s))

/-- The network's output at one node. -/
def decRow (agg xw : Fin 128 → EReal) (d : EReal) (b : Row 128) (W1 : Mat 128 128) (b1 : Row 128) (W2 : Mat 128 2)
    (b2 : Row 2) : Fin 2 → EReal :=
  softmaxRow (logits agg xw d b W1 b1 W2 b2)

/-- Starting the maximum from minus infinity a second time changes nothing: max (−∞, fold) = fold. -/
theorem max_bottom_rowMax (s : Fin 2 → EReal) : max bottom (rowMax s) = rowMax s :=
  max_eq_right ((Finset.le_fold_max _).mpr (Or.inl le_rfl))

end Cert.GraphNet

end
-- ==== Proof.Region0.lean ====
/-
  The encoder's region: what its output array holds afterwards.

  The region runs over 50 grid points; point t loads rows 2000·t … 2000·t + 1999 of the node features, the whole weight
  matrices and biases, and stores the same rows of the output.  A stored row depends only on the same row of the
  features: it is `encRow` of that row.  So the output array ends holding, at (r, q), `encRow` of row r of the features
  at q, whatever the tiling: each point's block is the restriction of that one function, and the blocks cover the array.
-/
import proofs.«153621_j16879221473930_2_alg».proof.Proof.Gen.KernelIdeal.Frame
import proofs.«153621_j16879221473930_2_alg».proof.Proof.Rows
import Idealize.ShloMosaic.Lib.Pipeline.Value
import Idealize.ShloMosaic.Lib.ValueIdx

set_option maxRecDepth 16384

noncomputable section

open scoped BigOperators

namespace Cert.KernelIdeal.Encoder

open Cert.KernelIdeal Cert.KernelIdeal.Gen Cert.GraphNet
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node whose row is row p of point t's block: 2000·t + p. -/
def node (t : Fin cfg0.N) (p : Fin 2000) : Fin 100000 :=
  ⟨2000 * t.val + p.val, by have h1 := t.isLt; have hN : cfg0.N = 50 := N_0; have h2 := p.isLt; omega⟩

theorem node_val (t : Fin cfg0.N) (p : Fin 2000) : (node t p).val = 2000 * t.val + p.val := rfl

/-- The printed block-index maps, decided over the 50 grid points: the windows over the node axis sit at block t,
    every other window at block zero. -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Window 0's block at point t is rows 2000·t … 2000·t + 1999 of its array: entry (p, k) of the block is entry
    (2000·t + p, k) of the array. -/
theorem read0_0 (c : Dev nD) (t : Fin cfg0.N) (p : Fin 2000) (k : Fin 16) :
    iblk0 V c 0 t (ix2 p k) = V c main_arg0 (ix2 (node t p) k) := by
  obtain ⟨e0, e1, -, -, -, -, -, -, -, -, -, -⟩ := idx0 t
  show V c main_arg0 (((cfg0.win 0).blk t).view.emb (ix2 p k)) = _
  have h : ((cfg0.win 0).blk t).view.emb (ix2 p k) = ix2 (node t p) k := by
    funext a; apply Fin.ext
    match a with
    | ⟨0, _⟩ => show win0_0.index t (0 : Fin 2) * 2000 + 1 * p.val = 2000 * t.val + p.val; omega
    | ⟨1, _⟩ => show win0_0.index t (1 : Fin 2) * 16 + 1 * k.val = k.val; omega
  rw [h]

/-- Window 1's block is its whole array at every point: its block index is zero on every axis. -/
theorem read0_1 (c : Dev nD) (t : Fin cfg0.N) : iblk0 V c 1 t = V c main_arg3 := by
  obtain ⟨-, -, e0, e1, -, -, -, -, -, -, -, -⟩ := idx0 t
  funext y
  show V c main_arg3 (((cfg0.win 1).blk t).view.emb y) = V c main_arg3 y
  have h : ((cfg0.win 1).blk t).view.emb y = y := by
    funext a; apply Fin.ext
    match a with
    | ⟨0, _⟩ => show win0_1.index t (0 : Fin 2) * 16 + 1 * (y 0).val = (y 0).val; omega
    | ⟨1, _⟩ => show win0_1.index t (1 : Fin 2) * 128 + 1 * (y 1).val = (y 1).val; omega
  rw [h]

/-- Window 2's block is its whole array at every point: its block index is zero on every axis. -/
theorem read0_2 (c : Dev nD) (t : Fin cfg0.N) : iblk0 V c 2 t = V c main_arg4 := by
  obtain ⟨-, -, -, -, e0, -, -, -, -, -, -, -⟩ := idx0 t
  funext y
  show V c main_arg4 (((cfg0.win 2).blk t).view.emb y) = V c main_arg4 y
  have h : ((cfg0.win 2).blk t).view.emb y = y := by
    funext a; apply Fin.ext
    match a with
    | ⟨0, _⟩ => show win0_2.index t (0 : Fin 1) * 128 + 1 * (y 0).val = (y 0).val; omega
  rw [h]

/-- Window 3's block is its whole array at every point: its block index is zero on every axis. -/
theorem read0_3 (c : Dev nD) (t : Fin cfg0.N) : iblk0 V c 3 t = V c main_arg5 := by
  obtain ⟨-, -, -, -, -, e0, e1, -, -, -, -, -⟩ := idx0 t
  funext y
  show V c main_arg5 (((cfg0.win 3).blk t).view.emb y) = V c main_arg5 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

/-- Window 4's block is its whole array at every point: its block index is zero on every axis. -/
theorem read0_4 (c : Dev nD) (t : Fin cfg0.N) : iblk0 V c 4 t = V c main_arg6 := by
  obtain ⟨-, -, -, -, -, -, -, e0, -, -, -, -⟩ := idx0 t
  funext y
  show V c main_arg6 (((cfg0.win 4).blk t).view.emb y) = V c main_arg6 y
  have h : ((cfg0.win 4).blk t).view.emb y = y := by
    funext a; apply Fin.ext
    match a with
    | ⟨0, _⟩ => show win0_4.index t (0 : Fin 1) * 128 + 1 * (y 0).val = (y 0).val; omega
  rw [h]

/-- Window 5's block is its whole array at every point: its block index is zero on every axis. -/
theorem read0_5 (c : Dev nD) (t : Fin cfg0.N) : iblk0 V c 5 t = V c main_arg7 := by
  obtain ⟨-, -, -, -, -, -, -, -, e0, e1, -, -⟩ := idx0 t
  funext y
  show V c main_arg7 (((cfg0.win 5).blk t).view.emb y) = V c main_arg7 y
  have h : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [h]

/-- The encoder on whole arrays: entry (r, q) is `encRow` of row r of the features, at q. -/
def encArr (a0 : S100000x16.Idx → EReal) (a3 : S16x128.Idx → EReal) (a4 : S128.Idx → EReal) (a5 : S128x128.Idx → EReal)
    (a6 : S128.Idx → EReal) (a7 : S128x128.Idx → EReal) : S100000x128.Idx → EReal :=
  fun i => encRow (fun k => a0 (ix2 (i 0) k)) a3 a4 a5 a6 a7 (i 1)

/-- The payload fact this module is read against: the stored block at (p, q) is the row function of row p of the
    loaded blocks. -/
abbrev PayloadAt : Prop := ∀ (x0 : Vec Ideal S2000x16 .f32) (x1 : Vec Ideal S16x128 .f32) (x2 : Vec Ideal S128 .f32) (x3 : Vec Ideal S128x128 .f32)
    (x4 : Vec Ideal S128 .f32) (x5 : Vec Ideal S128x128 .f32) (p : Fin 2000) (q : Fin 128),
    k0_pay1 (F := Ideal) x0 x1 x2 x3 x4 x5 (ix2 p q) = encRow (fun k => x0 (ix2 p k)) x1 x2 x3 x4 x5 q

/-- Entry (p, q) of point t's output block sits at (2000·t + p, q) of the output array. -/
theorem emb_out (t : Fin cfg0.N) (p : Fin 2000) (q : Fin 128) :
    ((cfg0.win 6).blk t).view.emb (ix2 p q) = ix2 (node t p) q := by
  obtain ⟨-, -, -, -, -, -, -, -, -, -, e0, e1⟩ := idx0 t
  funext a; apply Fin.ext
  match a with
  | ⟨0, _⟩ => show win0_6.index t (0 : Fin 2) * 2000 + 1 * p.val = 2000 * t.val + p.val; omega
  | ⟨1, _⟩ => show win0_6.index t (1 : Fin 2) * 128 + 1 * q.val = q.val; omega

/-- What point t writes back is block t of the whole-array function of the arrays as the region finds them. -/
theorem flushed_eq (hpay : PayloadAt) (c : Dev nD) (t : Fin cfg0.N) :
    (dat0 V c).flushed 6 t = ((cfg0.win 6).blk t).view.read (Elt Ideal) (encArr (V c main_arg0) (V c main_arg3) (V c main_arg4) (V c main_arg5) (V c main_arg6) (V c main_arg7)) := by
  show (cfg0.win 6).cut (grid0.coords t) ((dat0 V c).after 6 t) = _
  rw [after0_6, read0_1, read0_2, read0_3, read0_4, read0_5]
  unfold out0_6
  rw [View.canon_unit_zero hz2]
  simp only [View.ld_unit_zero (S := S2000x16) hz2, View.ld_unit_zero (S := S16x128) hz2, View.ld_unit_zero (S := S128) hz1, View.ld_unit_zero (S := S128x128) hz2]
  funext j
  obtain ⟨p, q, rfl⟩ : ∃ (p : Fin 2000) (q : Fin 128), j = ix2 p q := ⟨j 0, j 1, eq_ix2 j⟩
  show k0_pay1 (F := Ideal) (iblk0 V c 0 t) (V c main_arg3) (V c main_arg4) (V c main_arg5) (V c main_arg6) (V c main_arg7) (ix2 p q) = encArr (V c main_arg0) (V c main_arg3) (V c main_arg4) (V c main_arg5) (V c main_arg6) (V c main_arg7) (((cfg0.win 6).blk t).view.emb (ix2 p q))
  rw [emb_out t p q]
  refine (hpay (iblk0 V c 0 t) (V c main_arg3) (V c main_arg4) (V c main_arg5) (V c main_arg6) (V c main_arg7) p q).trans ?_
  show encRow (fun k => iblk0 V c 0 t (ix2 p k)) (V c main_arg3) (V c main_arg4) (V c main_arg5) (V c main_arg6) (V c main_arg7) q = encRow (fun k => V c main_arg0 (ix2 (node t p) k)) (V c main_arg3) (V c main_arg4) (V c main_arg5) (V c main_arg6) (V c main_arg7) q
  rw [show (fun k => iblk0 V c 0 t (ix2 p k)) = fun k => V c main_arg0 (ix2 (node t p) k) from funext fun k => read0_0 V c t p k]

/-- An index of the output array is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v4).slice (win0_6.rect t)).set ↔ _
  rw [View.set_slice_whole, Rect.mem_set_unit]
  exact Iff.rfl

/-- Every node's row is in some point's block: row r is in block r / 2000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, -, -, -, -, e0, e1⟩ := idx0 t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region: the whole-array function of the arrays as the region finds them. -/
theorem final (hpay : PayloadAt) (c : Dev nD) :
    (dat0 V c).arrAt 6 cfg0.N = encArr (V c main_arg0) (V c main_arg3) (V c main_arg4) (V c main_arg5) (V c main_arg6) (V c main_arg7) :=
  (dat0 V c).arrAt_eq_of_cover 6 _ (fun t _ => flushed_eq V hpay c t) cover

end Cert.KernelIdeal.Encoder

end
-- ==== Proof.Region1.lean ====
/-
  The first layer's region: what its output array holds afterwards.

  Point t loads rows 2000·t … 2000·t + 1999 of the aggregated neighbour rows, of the previous region's output and of the
  column of squared inverse-root degrees, the whole bias and the whole next weight matrix, and stores the same rows of the
  output.  A stored row depends only on the same row of the three row-blocked arrays: it is `layerRow` of them.  So the
  output array ends holding that one function of the arrays, row by row, whatever the tiling.
-/
import proofs.«153621_j16879221473930_2_alg».proof.Proof.Gen.KernelIdeal.Frame
import proofs.«153621_j16879221473930_2_alg».proof.Proof.Rows
import Idealize.ShloMosaic.Lib.Pipeline.Value
import Idealize.ShloMosaic.Lib.ValueIdx

set_option maxRecDepth 16384

noncomputable section

open scoped BigOperators

namespace Cert.KernelIdeal.Layer

open Cert.KernelIdeal Cert.KernelIdeal.Gen Cert.GraphNet
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node whose row is row p of point t's block: 2000·t + p. -/
def node (t : Fin cfg1.N) (p : Fin 2000) : Fin 100000 :=
  ⟨2000 * t.val + p.val, by have h1 := t.isLt; have hN : cfg1.N = 50 := N_1; have h2 := p.isLt; omega⟩

theorem node_val (t : Fin cfg1.N) (p : Fin 2000) : (node t p).val = 2000 * t.val + p.val := rfl

/-- The printed block-index maps, decided over the 50 grid points: the windows over the node axis sit at block t,
    every other window at block zero. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- Window 0's block at point t is rows 2000·t … 2000·t + 1999 of its array: entry (p, k) of the block is entry
    (2000·t + p, k) of the array. -/
theorem read1_0 (c : Dev nD) (t : Fin cfg1.N) (p : Fin 2000) (k : Fin 128) :
    iblk1 V c 0 t (ix2 p k) = V c main_v42 (ix2 (node t p) k) := by
  obtain ⟨e0, e1, -, -, -, -, -, -, -, -, -⟩ := idx1 t
  show V c main_v42 (((cfg1.win 0).blk t).view.emb (ix2 p k)) = _
  have h : ((cfg1.win 0).blk t).view.emb (ix2 p k) = ix2 (node t p) k := by
    funext a; apply Fin.ext
    match a with
    | ⟨0, _⟩ => show win1_0.index t (0 : Fin 2) * 2000 + 1 * p.val = 2000 * t.val + p.val; omega
    | ⟨1, _⟩ => show win1_0.index t (1 : Fin 2) * 128 + 1 * k.val = k.val; omega
  rw [h]

/-- Window 1's block at point t is rows 2000·t … 2000·t + 1999 of its array: entry (p, k) of the block is entry
    (2000·t + p, k) of the array. -/
theorem read1_1 (c : Dev nD) (t : Fin cfg1.N) (p : Fin 2000) (k : Fin 128) :
    iblk1 V c 1 t (ix2 p k) = V c main_v4 (ix2 (node t p) k) := by
  obtain ⟨-, -, e0, e1, -, -, -, -, -, -, -⟩ := idx1 t
  show V c main_v4 (((cfg1.win 1).blk t).view.emb (ix2 p k)) = _
  have h : ((cfg1.win 1).blk t).view.emb (ix2 p k) = ix2 (node t p) k := by
    funext a; apply Fin.ext
    match a with
    | ⟨0, _⟩ => show win1_1.index t (0 : Fin 2) * 2000 + 1 * p.val = 2000 * t.val + p.val; omega
    | ⟨1, _⟩ => show win1_1.index t (1 : Fin 2) * 128 + 1 * k.val = k.val; omega
  rw [h]

/-- Window 2's block at point t is rows 2000·t … 2000·t + 1999 of its array: entry (p, k) of the block is entry
    (2000·t + p, k) of the array. -/
theorem read1_2 (c : Dev nD) (t : Fin cfg1.N) (p : Fin 2000) (k : Fin 1) :
    iblk1 V c 2 t (ix2 p k) = V c main_v28 (ix2 (node t p) k) := by
  obtain ⟨-, -, -, -, e0, e1, -, -, -, -, -⟩ := idx1 t
  show V c main_v28 (((cfg1.win 2).blk t).view.emb (ix2 p k)) = _
  have h : ((cfg1.win 2).blk t).view.emb (ix2 p k) = ix2 (node t p) k := by
    funext a; apply Fin.ext
    match a with
    | ⟨0, _⟩ => show win1_2.index t (0 : Fin 2) * 2000 + 1 * p.val = 2000 * t.val + p.val; omega
    | ⟨1, _⟩ => show win1_2.index t (1 : Fin 2) * 1 + 1 * k.val = k.val; omega
  rw [h]

/-- Window 3's block is its whole array at every point: its block index is zero on every axis. -/
theorem read1_3 (c : Dev nD) (t : Fin cfg1.N) : iblk1 V c 3 t = V c main_arg8 := by
  obtain ⟨-, -, -, -, -, -, e0, -, -, -, -⟩ := idx1 t
  funext y
  show V c main_arg8 (((cfg1.win 3).blk t).view.emb y) = V c main_arg8 y
  have h : ((cfg1.win 3).blk t).view.emb y = y := by
    funext a; apply Fin.ext
    match a with
    | ⟨0, _⟩ => show win1_3.index t (0 : Fin 1) * 128 + 1 * (y 0).val = (y 0).val; omega
  rw [h]

/-- Window 4's block is its whole array at every point: its block index is zero on every axis. -/
theorem read1_4 (c : Dev nD) (t : Fin cfg1.N) : iblk1 V c 4 t = V c main_arg9 := by
  obtain ⟨-, -, -, -, -, -, -, e0, e1, -, -⟩ := idx1 t
  funext y
  show V c main_arg9 (((cfg1.win 4).blk t).view.emb y) = V c main_arg9 y
  have h : ((cfg1.win 4).blk t).view.emb y = y := by
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  rw [h]

/-- A layer on whole arrays: entry (r, q) is `layerRow` of row r of the aggregated rows, of the transformed rows and
    of the degree column, at q. -/
def layerArr (agg : S100000x128.Idx → EReal) (xw : S100000x128.Idx → EReal) (d : S100000x1.Idx → EReal) (b : S128.Idx → EReal)
    (W : S128x128.Idx → EReal) : S100000x128.Idx → EReal :=
  fun i => layerRow (fun k => agg (ix2 (i 0) k)) (fun k => xw (ix2 (i 0) k)) (d (ix2 (i 0) (0 : Fin 1))) b W (i 1)

/-- The payload fact this module is read against: the stored block at (p, q) is the row function of row p of the
    loaded blocks. -/
abbrev PayloadAt : Prop := ∀ (v0 : Vec Ideal S2000x128 .f32) (v2 : Vec Ideal S2000x128 .bf16) (v5 : Vec Ideal S2000x1 .f32) (v10 : Vec Ideal S128 .f32)
    (v17 : Vec Ideal S128x128 .f32) (p : Fin 2000) (q : Fin 128),
    k1_pay1 (F := Ideal) v0 v2 v5 v10 v17 (ix2 p q)
      = layerRow (fun k => v0 (ix2 p k)) (fun k => v2 (ix2 p k)) (v5 (ix2 p (0 : Fin 1))) v10 v17 q

/-- Entry (p, q) of point t's output block sits at (2000·t + p, q) of the output array. -/
theorem emb_out (t : Fin cfg1.N) (p : Fin 2000) (q : Fin 128) :
    ((cfg1.win 5).blk t).view.emb (ix2 p q) = ix2 (node t p) q := by
  obtain ⟨-, -, -, -, -, -, -, -, -, e0, e1⟩ := idx1 t
  funext a; apply Fin.ext
  match a with
  | ⟨0, _⟩ => show win1_5.index t (0 : Fin 2) * 2000 + 1 * p.val = 2000 * t.val + p.val; omega
  | ⟨1, _⟩ => show win1_5.index t (1 : Fin 2) * 128 + 1 * q.val = q.val; omega

/-- What point t writes back is block t of the whole-array function of the arrays as the region finds them. -/
theorem flushed_eq (hpay : PayloadAt) (c : Dev nD) (t : Fin cfg1.N) :
    (dat1 V c).flushed 5 t = ((cfg1.win 5).blk t).view.read (Elt Ideal) (layerArr (V c main_v42) (V c main_v4) (V c main_v28) (V c main_arg8) (V c main_arg9)) := by
  show (cfg1.win 5).cut (grid1.coords t) ((dat1 V c).after 5 t) = _
  rw [after1_5, read1_3, read1_4]
  unfold out1_5
  rw [View.canon_unit_zero hz2]
  simp only [View.ld_unit_zero (S := S2000x128) hz2, View.ld_unit_zero (S := S2000x1) hz2, View.ld_unit_zero (S := S128) hz1, View.ld_unit_zero (S := S128x128) hz2]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (V c main_arg8) (V c main_arg9) (ix2 p q) = layerArr (V c main_v42) (V c main_v4) (V c main_v28) (V c main_arg8) (V c main_arg9) (((cfg1.win 5).blk t).view.emb (ix2 p q))
  rw [emb_out t p q]
  refine (hpay (iblk1 V c 0 t) (iblk1 V c 1 t) (iblk1 V c 2 t) (V c main_arg8) (V c main_arg9) p q).trans ?_
  show layerRow (fun k => iblk1 V c 0 t (ix2 p k)) (fun k => iblk1 V c 1 t (ix2 p k)) (iblk1 V c 2 t (ix2 p (0 : Fin 1))) (V c main_arg8) (V c main_arg9) q = layerRow (fun k => V c main_v42 (ix2 (node t p) k)) (fun k => V c main_v4 (ix2 (node t p) k)) (V c main_v28 (ix2 (node t p) (0 : Fin 1))) (V c main_arg8) (V c main_arg9) q
  rw [show (fun k => iblk1 V c 0 t (ix2 p k)) = fun k => V c main_v42 (ix2 (node t p) k) from funext fun k => read1_0 V c t p k,
    show (fun k => iblk1 V c 1 t (ix2 p k)) = fun k => V c main_v4 (ix2 (node t p) k) from funext fun k => read1_1 V c t p k,
    read1_2 V c t p (0 : Fin 1)]

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- Every node's row is in some point's block: row r is in block r / 2000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, -, -, -, e0, e1⟩ := idx1 t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the whole-array function of the arrays as the region finds them. -/
theorem final (hpay : PayloadAt) (c : Dev nD) :
    (dat1 V c).arrAt 5 cfg1.N = layerArr (V c main_v42) (V c main_v4) (V c main_v28) (V c main_arg8) (V c main_arg9) :=
  (dat1 V c).arrAt_eq_of_cover 5 _ (fun t _ => flushed_eq V hpay c t) cover

end Cert.KernelIdeal.Layer

end
-- ==== Proof.Region2.lean ====
/-
  The decoder's region: what its output array holds afterwards.

  Point t loads rows 2000·t … 2000·t + 1999 of the second aggregation, of the first layer's output and of the column of
  squared inverse-root degrees, the whole bias, the decoder's two weight matrices and two biases, and stores the same
  rows of the two-column output.  A stored row depends only on the same row of the three row-blocked arrays: it is
  `decRow` of them, the softmax of the node's two logits.  So the output array ends holding that one function of the
  arrays, row by row, whatever the tiling.
-/
import proofs.«153621_j16879221473930_2_alg».proof.Proof.Gen.KernelIdeal.Frame
import proofs.«153621_j16879221473930_2_alg».proof.Proof.Rows
import Idealize.ShloMosaic.Lib.Pipeline.Value
import Idealize.ShloMosaic.Lib.ValueIdx

set_option maxRecDepth 16384

noncomputable section

open scoped BigOperators

namespace Cert.KernelIdeal.Decoder

open Cert.KernelIdeal Cert.KernelIdeal.Gen Cert.GraphNet
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node whose row is row p of point t's block: 2000·t + p. -/
def node (t : Fin cfg2.N) (p : Fin 2000) : Fin 100000 :=
  ⟨2000 * t.val + p.val, by have h1 := t.isLt; have hN : cfg2.N = 50 := N_2; have h2 := p.isLt; omega⟩

theorem node_val (t : Fin cfg2.N) (p : Fin 2000) : (node t p).val = 2000 * t.val + p.val := rfl

/-- The printed block-index maps, decided over the 50 grid points: the windows over the node axis sit at block t,
    every other window at block zero. -/
theorem idx2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 2) = 0
    ∧ win2_6.index t (1 : Fin 2) = 0
    ∧ win2_7.index t (0 : Fin 1) = 0
    ∧ win2_8.index t (0 : Fin 2) = t.val
    ∧ win2_8.index t (1 : Fin 2) = 0 :=
  (by decide +kernel : ∀ t : Fin grid2.N, _)

/-- Window 0's block at point t is rows 2000·t … 2000·t + 1999 of its array: entry (p, k) of the block is entry
    (2000·t + p, k) of the array. -/
theorem read2_0 (c : Dev nD) (t : Fin cfg2.N) (p : Fin 2000) (k : Fin 128) :
    iblk2 V c 0 t (ix2 p k) = V c main_v57 (ix2 (node t p) k) := by
  obtain ⟨e0, e1, -, -, -, -, -, -, -, -, -, -, -, -, -⟩ := idx2 t
  show V c main_v57 (((cfg2.win 0).blk t).view.emb (ix2 p k)) = _
  have h : ((cfg2.win 0).blk t).view.emb (ix2 p k) = ix2 (node t p) k := by
    funext a; apply Fin.ext
    match a with
    | ⟨0, _⟩ => show win2_0.index t (0 : Fin 2) * 2000 + 1 * p.val = 2000 * t.val + p.val; omega
    | ⟨1, _⟩ => show win2_0.index t (1 : Fin 2) * 128 + 1 * k.val = k.val; omega
  rw [h]

/-- Window 1's block at point t is rows 2000·t … 2000·t + 1999 of its array: entry (p, k) of the block is entry
    (2000·t + p, k) of the array. -/
theorem read2_1 (c : Dev nD) (t : Fin cfg2.N) (p : Fin 2000) (k : Fin 128) :
    iblk2 V c 1 t (ix2 p k) = V c main_v43 (ix2 (node t p) k) := by
  obtain ⟨-, -, e0, e1, -, -, -, -, -, -, -, -, -, -, -⟩ := idx2 t
  show V c main_v43 (((cfg2.win 1).blk t).view.emb (ix2 p k)) = _
  have h : ((cfg2.win 1).blk t).view.emb (ix2 p k) = ix2 (node t p) k := by
    funext a; apply Fin.ext
    match a with
    | ⟨0, _⟩ => show win2_1.index t (0 : Fin 2) * 2000 + 1 * p.val = 2000 * t.val + p.val; omega
    | ⟨1, _⟩ => show win2_1.index t (1 : Fin 2) * 128 + 1 * k.val = k.val; omega
  rw [h]

/-- Window 2's block at point t is rows 2000·t … 2000·t + 1999 of its array: entry (p, k) of the block is entry
    (2000·t + p, k) of the array. -/
theorem read2_2 (c : Dev nD) (t : Fin cfg2.N) (p : Fin 2000) (k : Fin 1) :
    iblk2 V c 2 t (ix2 p k) = V c main_v28 (ix2 (node t p) k) := by
  obtain ⟨-, -, -, -, e0, e1, -, -, -, -, -, -, -, -, -⟩ := idx2 t
  show V c main_v28 (((cfg2.win 2).blk t).view.emb (ix2 p k)) = _
  have h : ((cfg2.win 2).blk t).view.emb (ix2 p k) = ix2 (node t p) k := by
    funext a; apply Fin.ext
    match a with
    | ⟨0, _⟩ => show win2_2.index t (0 : Fin 2) * 2000 + 1 * p.val = 2000 * t.val + p.val; omega
    | ⟨1, _⟩ => show win2_2.index t (1 : Fin 2) * 1 + 1 * k.val = k.val; omega
  rw [h]

/-- Window 3's block is its whole array at every point: its block index is zero on every axis. -/
theorem read2_3 (c : Dev nD) (t : Fin cfg2.N) : iblk2 V c 3 t = V c main_arg10 := by
  obtain ⟨-, -, -, -, -, -, e0, -, -, -, -, -, -, -, -⟩ := idx2 t
  funext y
  show V c main_arg10 (((cfg2.win 3).blk t).view.emb y) = V c main_arg10 y
  have h : ((cfg2.win 3).blk t).view.emb y = y := by
    funext a; apply Fin.ext
    match a with
    | ⟨0, _⟩ => show win2_3.index t (0 : Fin 1) * 128 + 1 * (y 0).val = (y 0).val; omega
  rw [h]

/-- Window 4's block is its whole array at every point: its block index is zero on every axis. -/
theorem read2_4 (c : Dev nD) (t : Fin cfg2.N) : iblk2 V c 4 t = V c main_arg11 := by
  obtain ⟨-, -, -, -, -, -, -, e0, e1, -, -, -, -, -, -⟩ := idx2 t
  funext y
  show V c main_arg11 (((cfg2.win 4).blk t).view.emb y) = V c main_arg11 y
  have h : ((cfg2.win 4).blk t).view.emb y = y := by
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  rw [h]

/-- Window 5's block is its whole array at every point: its block index is zero on every axis. -/
theorem read2_5 (c : Dev nD) (t : Fin cfg2.N) : iblk2 V c 5 t = V c main_arg12 := by
  obtain ⟨-, -, -, -, -, -, -, -, -, e0, -, -, -, -, -⟩ := idx2 t
  funext y
  show V c main_arg12 (((cfg2.win 5).blk t).view.emb y) = V c main_arg12 y
  have h : ((cfg2.win 5).blk t).view.emb y = y := by
    funext a; apply Fin.ext
    match a with
    | ⟨0, _⟩ => show win2_5.index t (0 : Fin 1) * 128 + 1 * (y 0).val = (y 0).val; omega
  rw [h]

/-- Window 6's block is its whole array at every point: its block index is zero on every axis. -/
theorem read2_6 (c : Dev nD) (t : Fin cfg2.N) : iblk2 V c 6 t = V c main_arg13 := by
  obtain ⟨-, -, -, -, -, -, -, -, -, -, e0, e1, -, -, -⟩ := idx2 t
  funext y
  show V c main_arg13 (((cfg2.win 6).blk t).view.emb y) = V c main_arg13 y
  have h : ((cfg2.win 6).blk t).view.emb y = y := by
    funext a; apply Fin.ext
    match a with
    | ⟨0, _⟩ => show win2_6.index t (0 : Fin 2) * 128 + 1 * (y 0).val = (y 0).val; omega
    | ⟨1, _⟩ => show win2_6.index t (1 : Fin 2) * 2 + 1 * (y 1).val = (y 1).val; omega
  rw [h]

/-- Window 7's block is its whole array at every point: its block index is zero on every axis. -/
theorem read2_7 (c : Dev nD) (t : Fin cfg2.N) : iblk2 V c 7 t = V c main_arg14 := by
  obtain ⟨-, -, -, -, -, -, -, -, -, -, -, -, e0, -, -⟩ := idx2 t
  funext y
  show V c main_arg14 (((cfg2.win 7).blk t).view.emb y) = V c main_arg14 y
  have h : ((cfg2.win 7).blk t).view.emb y = y := by
    funext a; apply Fin.ext
    match a with
    | ⟨0, _⟩ => show win2_7.index t (0 : Fin 1) * 2 + 1 * (y 0).val = (y 0).val; omega
  rw [h]

/-- The decoder on whole arrays: entry (r, u) is `decRow` of row r of the aggregated rows, of the transformed rows and
    of the degree column, at u. -/
def decArr (agg : S100000x128.Idx → EReal) (xw : S100000x128.Idx → EReal) (d : S100000x1.Idx → EReal) (b : S128.Idx → EReal)
    (W1 : S128x128.Idx → EReal) (b1 : S128.Idx → EReal) (W2 : S128x2.Idx → EReal) (b2 : S2.Idx → EReal) : S100000x2.Idx → EReal :=
  fun i => decRow (fun k => agg (ix2 (i 0) k)) (fun k => xw (ix2 (i 0) k)) (d (ix2 (i 0) (0 : Fin 1))) b W1 b1 W2 b2 (i 1)

/-- The payload fact this module is read against: the stored block at (p, q) is the row function of row p of the
    loaded blocks. -/
abbrev PayloadAt : Prop := ∀ (v0 : Vec Ideal S2000x128 .f32) (v2 : Vec Ideal S2000x128 .bf16) (v5 : Vec Ideal S2000x1 .f32) (v10 : Vec Ideal S128 .f32)
    (v17 : Vec Ideal S128x128 .f32) (v20 : Vec Ideal S128 .f32) (v27 : Vec Ideal S128x2 .f32) (v30 : Vec Ideal S2 .f32) (p : Fin 2000) (u : Fin 2),
    k2_pay1 (F := Ideal) (k2_pay2 v0 v2 v5 v10 v17 v20 v27 v30) (k2_pay3 v0 v2 v5 v10 v17 v20 v27 v30) (ix2 p u)
      = decRow (fun k => v0 (ix2 p k)) (fun k => v2 (ix2 p k)) (v5 (ix2 p (0 : Fin 1))) v10 v17 v20 v27 v30 u

/-- Entry (p, q) of point t's output block sits at (2000·t + p, q) of the output array. -/
theorem emb_out (t : Fin cfg2.N) (p : Fin 2000) (q : Fin 2) :
    ((cfg2.win 8).blk t).view.emb (ix2 p q) = ix2 (node t p) q := by
  obtain ⟨-, -, -, -, -, -, -, -, -, -, -, -, -, e0, e1⟩ := idx2 t
  funext a; apply Fin.ext
  match a with
  | ⟨0, _⟩ => show win2_8.index t (0 : Fin 2) * 2000 + 1 * p.val = 2000 * t.val + p.val; omega
  | ⟨1, _⟩ => show win2_8.index t (1 : Fin 2) * 2 + 1 * q.val = q.val; omega

/-- What point t writes back is block t of the whole-array function of the arrays as the region finds them. -/
theorem flushed_eq (hpay : PayloadAt) (c : Dev nD) (t : Fin cfg2.N) :
    (dat2 V c).flushed 8 t = ((cfg2.win 8).blk t).view.read (Elt Ideal) (decArr (V c main_v57) (V c main_v43) (V c main_v28) (V c main_arg10) (V c main_arg11) (V c main_arg12) (V c main_arg13) (V c main_arg14)) := by
  show (cfg2.win 8).cut (grid2.coords t) ((dat2 V c).after 8 t) = _
  rw [after2_8, read2_3, read2_4, read2_5, read2_6, read2_7]
  unfold out2_8
  rw [View.canon_unit_zero hz2]
  simp only [View.ld_unit_zero (S := S2000x128) hz2, View.ld_unit_zero (S := S2000x1) hz2, View.ld_unit_zero (S := S128) hz1, View.ld_unit_zero (S := S128x128) hz2, View.ld_unit_zero (S := S128x2) hz2, View.ld_unit_zero (S := S2) hz1]
  funext j
  obtain ⟨p, q, rfl⟩ : ∃ (p : Fin 2000) (q : Fin 2), j = ix2 p q := ⟨j 0, j 1, eq_ix2 j⟩
  show k2_pay1 (F := Ideal) (k2_pay2 (iblk2 V c 0 t) (iblk2 V c 1 t) (iblk2 V c 2 t) (V c main_arg10) (V c main_arg11) (V c main_arg12) (V c main_arg13) (V c main_arg14)) (k2_pay3 (iblk2 V c 0 t) (iblk2 V c 1 t) (iblk2 V c 2 t) (V c main_arg10) (V c main_arg11) (V c main_arg12) (V c main_arg13) (V c main_arg14)) (ix2 p q) = decArr (V c main_v57) (V c main_v43) (V c main_v28) (V c main_arg10) (V c main_arg11) (V c main_arg12) (V c main_arg13) (V c main_arg14) (((cfg2.win 8).blk t).view.emb (ix2 p q))
  rw [emb_out t p q]
  refine (hpay (iblk2 V c 0 t) (iblk2 V c 1 t) (iblk2 V c 2 t) (V c main_arg10) (V c main_arg11) (V c main_arg12) (V c main_arg13) (V c main_arg14) p q).trans ?_
  show decRow (fun k => iblk2 V c 0 t (ix2 p k)) (fun k => iblk2 V c 1 t (ix2 p k)) (iblk2 V c 2 t (ix2 p (0 : Fin 1))) (V c main_arg10) (V c main_arg11) (V c main_arg12) (V c main_arg13) (V c main_arg14) q = decRow (fun k => V c main_v57 (ix2 (node t p) k)) (fun k => V c main_v43 (ix2 (node t p) k)) (V c main_v28 (ix2 (node t p) (0 : Fin 1))) (V c main_arg10) (V c main_arg11) (V c main_arg12) (V c main_arg13) (V c main_arg14) q
  rw [show (fun k => iblk2 V c 0 t (ix2 p k)) = fun k => V c main_v57 (ix2 (node t p) k) from funext fun k => read2_0 V c t p k,
    show (fun k => iblk2 V c 1 t (ix2 p k)) = fun k => V c main_v43 (ix2 (node t p) k) from funext fun k => read2_1 V c t p k,
    read2_2 V c t p (0 : Fin 1)]

/-- An index of the output array is in point t's block iff each coordinate is in the block's range on its axis. -/
theorem mem_blk (t : Fin cfg2.N) (i : S100000x2.Idx) :
    i ∈ ((cfg2.win 8).blk t).view.set ↔ ∀ a : Fin 2, win2_8.index t a * S2000x2.size a ≤ (i a).val ∧ (i a).val < win2_8.index t a * S2000x2.size a + S2000x2.size a := by
  show i ∈ ((View.whole main_v58).slice (win2_8.rect t)).set ↔ _
  rw [View.set_slice_whole, Rect.mem_set_unit]
  exact Iff.rfl

/-- Every node's row is in some point's block: row r is in block r / 2000. -/
theorem cover (i : S100000x2.Idx) : ∃ t : Fin cfg2.N, (cfg2.win 8).flush t = true ∧ i ∈ ((cfg2.win 8).blk t).view.set := by
  have hi0 : (i 0).val < 100000 := (i 0).isLt
  have hi1 : (i 1).val < 2 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, -, -, -, -, -, -, -, e0, e1⟩ := idx2 t
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 2 ≤ (i 1).val ∧ (i 1).val < win2_8.index t (1 : Fin 2) * 2 + 2; omega

/-- The output array after the region: the whole-array function of the arrays as the region finds them. -/
theorem final (hpay : PayloadAt) (c : Dev nD) :
    (dat2 V c).arrAt 8 cfg2.N = decArr (V c main_v57) (V c main_v43) (V c main_v28) (V c main_arg10) (V c main_arg11) (V c main_arg12) (V c main_arg13) (V c main_arg14) :=
  (dat2 V c).arrAt_eq_of_cover 8 _ (fun t _ => flushed_eq V hpay c t) cover

end Cert.KernelIdeal.Decoder

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibSoftmaxStages.lean ====
/-
  The stages of a row softmax, and two re-laid arrays, read at an index given by coordinates, at the ideal values.

  For an [a, b] array S: the maximum along each row is the fold of max from the accumulator's value over the row;
  a row reduction kept as an [a, 1] column and spread back along the rows reads, at (r, t), the reduction of row r;
  so the exponential of S below its row maxima is, at (r, t), exp (S (r, t) − max over row r), and an array divided
  by its row sums is, at (r, t), its entry over the sum of row r.  An [a, b] matrix viewed with two leading unit
  axes, and back, keeps every element at its row-major position.  Nothing here names a particular program.
-/
import Idealize.ShloMosaic.Lib.Pipeline.Value
import Idealize.ShloMosaic.Lib.ValueIdx
import Idealize.ShloMosaic.PureOps.Ideal.Laws
import proofs.«153621_j16879221473930_2_alg».proof.Proof.LibKeptColumn
import proofs.«153621_j16879221473930_2_alg».proof.Proof.LibSumsAtIndex

noncomputable section

open scoped BigOperators

namespace Idealize.ShloMosaic.SoftmaxStages

open Idealize.ShloMosaic Idealize.ShloMosaic.ValueIdx

/-- The vector unit's maximum along axis 1 of an [a, b] array, at row r: the fold of max from the accumulator's
    value over the entries of row r. -/
theorem rowmax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  have hf : (src ∘ h.lift (ix1 r)) = fun d : Fin b => src (ix2 r d) :=
    funext fun d => congrArg src (funext fun ax => Fin.ext (by
      match ax with
      | ⟨0, _⟩ => rfl
      | ⟨1, _⟩ => rfl))
  exact congrArg (fun f => Finset.fold max (Ideal.ofBits .f32 acc) f (Finset.univ : Finset (Fin b))) hf

/-- A vector of length a kept as an [a, 1] column and spread along the rows of an [a, b] array reads, at (r, t),
    the vector's entry r. -/
theorem kept_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (t : Fin b) :
    broadcastTo ⟨2, ![a, b]⟩ (shapeCast ⟨2, ![a, 1]⟩ v hc) hb (ix2 r t) = v (ix1 r) :=
  (KeptColumn.broadcastTo_a1_ab_apply _ hb r t).trans (KeptColumn.shapeCast_a_a1_apply v hc r 0)

/-- The exponentials of an [a, b] array below its row maxima, at (r, t). -/
theorem exp_sub_rowmax_apply {a b : ℕ} (S : FVec Ideal ⟨2, ![a, b]⟩ .f32) (acc : BitVec FTy.f32.bits)
    (hr : (⟨2, ![a, b]⟩ : Shape).Reduces [1] ⟨1, ![a]⟩) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    exp (subf S (broadcastTo ⟨2, ![a, b]⟩ (shapeCast ⟨2, ![a, 1]⟩
        (multiReduction .maximumf [1] ⟨1, ![a]⟩ S acc hr hφ hacc) hc) hb)) (ix2 r t)
      = Ideal.exp (S (ix2 r t) - (Finset.univ : Finset (Fin b)).fold max (Ideal.ofBits .f32 acc) (fun d => S (ix2 r d))) :=
  congrArg (fun m => Ideal.exp (S (ix2 r t) - m))
    ((kept_apply _ hc hb r t).trans (rowmax_apply S acc hr hφ hacc r))

/-- An [a, b] array divided by its row sums, at (r, t). -/
theorem div_rowsum_apply {a b : ℕ} (E : FVec Ideal ⟨2, ![a, b]⟩ .f32) (acc : BitVec FTy.f32.bits)
    (hr : (⟨2, ![a, b]⟩ : Shape).Reduces [1] ⟨1, ![a]⟩) (hφ : FKind.Formats .f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    divf E (broadcastTo ⟨2, ![a, b]⟩ (shapeCast ⟨2, ![a, 1]⟩
        (multiReduction .add [1] ⟨1, ![a]⟩ E acc hr hφ hacc) hc) hb) (ix2 r t)
      = Ideal.div (E (ix2 r t)) (∑ d : Fin b, E (ix2 r d)) :=
  congrArg (fun m => Ideal.div (E (ix2 r t)) m)
    ((kept_apply _ hc hb r t).trans (SumsAtIndex.rowsum_apply E acc hr hφ hacc r))

/-- A [1, 1, a, b] array read as an [a, b] matrix: entry (i, j) is the array's entry (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix viewed as [1, 1, a, b] reads, at (u, u', i, j), the matrix's entry (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_two, Shape.rowMajor_val_four]
    show i.val * b + j.val = ((u.val * 1 + u'.val) * a + i.val) * b + j.val
    rw [hu, hu']
    simp only [Nat.zero_mul, Nat.zero_add])

end Idealize.ShloMosaic.SoftmaxStages

end
-- ==== Proof.KPay.lean ====
/-
  The kernel's three stored values, read at an index, at the ideal values.

  Each of the three kernel bodies stores one array computed from the blocks it loads.  At the extended reals a
  narrowing or widening of the float format changes nothing, a shape cast to the same shape changes nothing, a
  matrix product into the zero accumulator is, at entry (p, q), the sum over k of l (p, k) · r (k, q), a bias of
  length N viewed as a 1 × N row and repeated down the rows reads b q at (p, q), an M × 1 column repeated along
  the rows reads the column's entry of row p, and the maximum with the splat of the zero pattern is the
  rectifier.  So every entry (p, q) of a stored array depends on row p of the loaded blocks only, and is the
  row function of the network at that row: the encoder followed by the first layer's weight, a layer's self-loop
  stage followed by the next weight, and the decoder's softmax of the two logits.
-/
import proofs.«153621_j16879221473930_2_alg».proof.Proof.Gen.KernelIdeal.Skeleton
import proofs.«153621_j16879221473930_2_alg».proof.Proof.Rows
import proofs.«153621_j16879221473930_2_alg».proof.Proof.LibPlainMatmul
import proofs.«153621_j16879221473930_2_alg».proof.Proof.LibKeptColumn
import proofs.«153621_j16879221473930_2_alg».proof.Proof.LibSoftmaxStages
import Idealize.ShloMosaic.Lib.ValueLayout

noncomputable section

open scoped BigOperators

namespace Cert.KernelIdeal.Payload

open Cert.KernelIdeal Cert.KernelIdeal.Gen Cert.GraphNet Idealize.ShloMosaic Idealize.ShloMosaic.ValueIdx

/-! ## Stages over variables -/

/-- A bias of length N viewed as a 1 × N row and repeated down the M rows reads, at (p, q), the bias at q. -/
theorem bias_apply {α : Type} {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- A plain matrix product into the zero accumulator, at (p, q): the row p of the left operand times the right
    operand, entry q. -/
theorem lin_apply {M K N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = lin (fun k => l (ix2 p k)) r q :=
  PlainMatmul.matmul_zero_apply D hlc hrc hln hrn hlb hrb none l r p q

/-- A plain matrix product into the zero accumulator plus a repeated bias row, at (p, q): x · W + b at q, x the
    row p of the left operand. -/
theorem aff_apply {M K N : ℕ} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul D none l r (constant ⟨2, ![M, N]⟩ .f32 0x00000000#32))
        (broadcastTo ⟨2, ![M, N]⟩ (shapeCast ⟨2, ![1, N]⟩ b hc) hb) (ix2 p q)
      = aff (fun k => l (ix2 p k)) r b q :=
  congrArg₂ (fun a c : EReal => a + c) (lin_apply D hlc hrc hln hrn hlb hrb l r p q) (bias_apply b hc hb p q)

/-- The maximum with the splat of the zero pattern is the rectifier, entry by entry. -/
theorem relu_apply {s : Shape} (z : FVec Ideal s .f32) (i : s.Idx) :
    maximumf z (broadcast s (Scalar.ofBits .f32 0x00000000#32)) i = relu (z i) := rfl

/-- The self-loop stage at (p, k): the aggregated row plus the node's degree factor times its own transformed
    row, plus the bias, rectified. -/
theorem self_apply {M : ℕ} (agg : FVec Ideal ⟨2, ![M, 128]⟩ .f32) (xw : FVec Ideal ⟨2, ![M, 128]⟩ .bf16)
    (d : FVec Ideal ⟨2, ![M, 1]⟩ .f32) (b : FVec Ideal ⟨1, ![128]⟩ .f32)
    (h0 : (⟨2, ![M, 128]⟩ : Shape).ShapeCasts ⟨2, ![M, 128]⟩) (h1 : (⟨2, ![M, 1]⟩ : Shape).ShapeCasts ⟨2, ![M, 1]⟩)
    (hd : (⟨2, ![M, 1]⟩ : Shape).Broadcasts ⟨2, ![M, 128]⟩) (hlt : FTy.bits .bf16 < FTy.bits .f32)
    (hc : (⟨1, ![128]⟩ : Shape).ShapeCasts ⟨2, ![1, 128]⟩) (hb : (⟨2, ![1, 128]⟩ : Shape).Broadcasts ⟨2, ![M, 128]⟩)
    (p : Fin M) (k : Fin 128) :
    maximumf
        (addf (addf (shapeCast ⟨2, ![M, 128]⟩ agg h0)
            (mulf (broadcastTo ⟨2, ![M, 128]⟩ (shapeCast ⟨2, ![M, 1]⟩ d h1) hd)
              (extf .f32 (shapeCast ⟨2, ![M, 128]⟩ xw h0) hlt)))
          (broadcastTo ⟨2, ![M, 128]⟩ (shapeCast ⟨2, ![1, 128]⟩ b hc) hb))
        (broadcast ⟨2, ![M, 128]⟩ (Scalar.ofBits .f32 0x00000000#32)) (ix2 p k)
      = selfRow (fun j => agg (ix2 p j)) (fun j => xw (ix2 p j)) (d (ix2 p (0 : Fin 1))) b k := by
  rw [shapeCast_self agg h0, shapeCast_self xw h0, shapeCast_self d h1]
  exact congrArg relu (congrArg₂ (fun a c : EReal => a + c)
    (congrArg (fun c : EReal => agg (ix2 p k) + c * xw (ix2 p k)) (KeptColumn.broadcastTo_a1_ab_apply d hd p k))
    (bias_apply b hc hb p k))

/-! ## The three stored values -/

/-- The encoder kernel's stored value at (p, q): the encoder's row function of row p of the features, followed by
    the first layer's weight, at q. -/
theorem enc_apply (x0 : Vec Ideal S2000x16 .f32) (x1 : Vec Ideal S16x128 .f32) (x2 : Vec Ideal S128 .f32) (x3 : Vec Ideal S128x128 .f32) (x4 : Vec Ideal S128 .f32) (x5 : Vec Ideal S128x128 .f32) (p : Fin 2000) (q : Fin 128) :
    k0_pay1 (F := Ideal) x0 x1 x2 x3 x4 x5 (ix2 p q) = encRow (fun k => x0 (ix2 p k)) x1 x2 x3 x4 x5 q := by
  unfold k0_pay1
  refine (lin_apply _ rfl rfl rfl rfl rfl rfl _ _ p q).trans ?_
  refine congrArg (fun f => lin f x5 q) (funext fun k => ?_)
  refine (aff_apply _ rfl rfl rfl rfl rfl rfl _ _ x4 _ _ p k).trans ?_
  refine congrArg (fun f => aff f x3 x4 k) (funext fun j => ?_)
  exact congrArg relu (aff_apply _ rfl rfl rfl rfl rfl rfl _ _ x2 _ _ p j)

/-- A layer kernel's stored value at (p, q): the self-loop stage of row p followed by the next layer's weight,
    at q. -/
theorem layer_apply (v0 : Vec Ideal S2000x128 .f32) (v2 : Vec Ideal S2000x128 .bf16) (v5 : Vec Ideal S2000x1 .f32) (v10 : Vec Ideal S128 .f32) (v17 : Vec Ideal S128x128 .f32) (p : Fin 2000) (q : Fin 128) :
    k1_pay1 (F := Ideal) v0 v2 v5 v10 v17 (ix2 p q) = layerRow (fun k => v0 (ix2 p k)) (fun k => v2 (ix2 p k)) (v5 (ix2 p (0 : Fin 1))) v10 v17 q := by
  unfold k1_pay1
  refine (lin_apply _ rfl rfl rfl rfl rfl rfl _ _ p q).trans ?_
  exact congrArg (fun f => lin f v17 q) (funext fun k => self_apply v0 v2 v5 v10 _ _ _ _ _ _ p k)

/-- The exponentials of a row of two below the row's maximum, and their quotient by their sum: the softmax of
    the row, when the array's row r is the row s. -/
theorem softmax_apply {a : ℕ} (S : FVec Ideal ⟨2, ![a, 2]⟩ .f32)
    (hr : (⟨2, ![a, 2]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, 2]⟩)
    (r : Fin a) (s : Fin 2 → EReal) (hS : ∀ t, S (ix2 r t) = s t) (u : Fin 2) :
    divf (exp (subf S (broadcastTo ⟨2, ![a, 2]⟩ (shapeCast ⟨2, ![a, 1]⟩
          (multiReduction .maximumf [1] ⟨1, ![a]⟩ S 0xFF800000#32 hr hφ hmax) hc) hb)))
        (broadcastTo ⟨2, ![a, 2]⟩ (shapeCast ⟨2, ![a, 1]⟩
          (multiReduction .add [1] ⟨1, ![a]⟩
            (exp (subf S (broadcastTo ⟨2, ![a, 2]⟩ (shapeCast ⟨2, ![a, 1]⟩
              (multiReduction .maximumf [1] ⟨1, ![a]⟩ S 0xFF800000#32 hr hφ hmax) hc) hb)))
            0x00000000#32 hr hφ hadd) hc) hb) (ix2 r u)
      = softmaxRow s u := by
  have hE : ∀ t, exp (subf S (broadcastTo ⟨2, ![a, 2]⟩ (shapeCast ⟨2, ![a, 1]⟩
        (multiReduction .maximumf [1] ⟨1, ![a]⟩ S 0xFF800000#32 hr hφ hmax) hc) hb)) (ix2 r t)
      = Ideal.exp (s t - rowMax s) := fun t =>
    (SoftmaxStages.exp_sub_rowmax_apply S _ hr hφ hmax hc hb r t).trans
      (congrArg₂ (fun (x : EReal) (f : Fin 2 → EReal) => Ideal.exp (x - (Finset.univ : Finset (Fin 2)).fold max bottom f))
        (hS t) (funext hS))
  refine (SoftmaxStages.div_rowsum_apply _ _ hr hφ hadd hc hb r u).trans ?_
  exact congrArg₂ Ideal.div (hE u) (Finset.sum_congr rfl fun t _ => hE t)

/-- The decoder kernel's stored value at (p, u): the softmax of the two logits of row p, at u. -/
theorem dec_apply (v0 : Vec Ideal S2000x128 .f32) (v2 : Vec Ideal S2000x128 .bf16) (v5 : Vec Ideal S2000x1 .f32) (v10 : Vec Ideal S128 .f32) (v17 : Vec Ideal S128x128 .f32) (v20 : Vec Ideal S128 .f32) (v27 : Vec Ideal S128x2 .f32) (v30 : Vec Ideal S2 .f32) (p : Fin 2000) (u : Fin 2) :
    k2_pay1 (F := Ideal) (k2_pay2 v0 v2 v5 v10 v17 v20 v27 v30) (k2_pay3 v0 v2 v5 v10 v17 v20 v27 v30) (ix2 p u)
      = decRow (fun k => v0 (ix2 p k)) (fun k => v2 (ix2 p k)) (v5 (ix2 p (0 : Fin 1))) v10 v17 v20 v27 v30 u := by
  unfold k2_pay1 k2_pay3 k2_pay2
  refine softmax_apply _ _ _ _ _ _ _ p _ (fun t => ?_) u
  refine (aff_apply _ rfl rfl rfl rfl rfl rfl _ _ v30 _ _ p t).trans ?_
  refine congrArg (fun f => aff f v27 v30 t) (funext fun k => ?_)
  refine congrArg relu ((aff_apply _ rfl rfl rfl rfl rfl rfl _ _ v20 _ _ p k).trans ?_)
  exact congrArg (fun f => aff f v17 v20 k) (funext fun j => self_apply v0 v2 v5 v10 _ _ _ _ _ _ p j)

end Cert.KernelIdeal.Payload

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«153621_j16879221473930_2_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.RefRows.lean ====
/-
  Three stages of the reference program, read one node (one row of the node axis) at a time, at exact arithmetic.

  The reference computes every dense stage on whole [100000, ·] arrays.  Each such stage acts on a row and on nothing
  else of the node axis, so at entry (r, q) it is a function of row r of its operands:
  * the encoder followed by the first layer's weight, ((relu (x · W1 + b1)) · W2 + b2) · cW, is `encRow` of row r of x;
  * a layer's output times the next weight, (relu ((agg + d · xw) + b)) · W, is `layerRow` of row r of the aggregated
    neighbour rows agg, of row r of the node's own transformed rows xw and of the node's coefficient d (r, 0);
  * the decoder — the second layer's output, one more hidden layer, the two logits and their softmax along the row —
    is `decRow` of the same three things for the second layer.
  The aggregated rows (sums over the edges) and the coefficient column are left as they are: nothing here looks inside
  them.  The general facts first (a matrix product plus a bias row, the rectifier, a column spread along the rows, the
  row maximum as a fold, the softmax of a row of two), for arrays of any extents; then the three stages.
-/
import proofs.«153621_j16879221473930_2_alg».proof.Proof.Gen.ReferenceIdeal.Read
import proofs.«153621_j16879221473930_2_alg».proof.Proof.Rows
import proofs.«153621_j16879221473930_2_alg».proof.Proof.LibHostDot
import proofs.«153621_j16879221473930_2_alg».proof.Proof.LibHostAffine

noncomputable section

open scoped BigOperators

namespace Cert.ReferenceIdeal.Rows

open Cert.ReferenceIdeal Cert.ReferenceIdeal.Gen Cert.ReferenceIdeal.Read Cert.GraphNet Idealize.ShloMosaic Idealize.ShloMosaic.ValueIdx

/-! ## General facts, for arrays of any extents -/

/-- Entry (r, q) of the host's product X · W: the row r of X times W, at q. -/
theorem dot_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (W : FVec Ideal ⟨2, ![K, N]⟩ .f32) (r : Fin M) (q : Fin N) :
    Host.dotGeneral D none X W (ix2 r q) = lin (fun k => X (ix2 r k)) W q :=
  HostDot.dotGeneral_apply D hlc hrc hln hrn hlb hrb none X W r q

/-- Entry (r, q) of X · W + b, the bias b laid as a row and repeated down the rows: the row r of X times W plus b, at q. -/
theorem dot_bias_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (q : Fin N) :
    addf (Host.dotGeneral D none X W) (broadcastInDim ⟨2, ![M, N]⟩ ![0, 1] h2 (broadcastInDim ⟨2, ![1, N]⟩ ![1] h1 b)) (ix2 r q)
      = aff (fun k => X (ix2 r k)) W b q :=
  congrArg₂ (fun u v : EReal => u + v) (dot_apply D hlc hrc hln hrn hlb hrb X W r q) (HostAffine.bias_bcast b h1 h2 r q)

/-- The maximum with the all-zero constant spread over the whole array is, at any index, the rectifier of the entry. -/
theorem relu_apply {t : Shape} (x : FVec Ideal t .f32)
    (h : (⟨0, ![]⟩ : Shape).BroadcastsInDim t (![] : Fin 0 → Fin t.rank)) (i : t.Idx) :
    maximumf x (broadcastInDim t ![] h (constant (F := Ideal) ⟨0, ![]⟩ .f32 0x00000000#32)) i = relu (x i) :=
  congrArg (fun z : EReal => max (x i) z) (HostAffine.bcast_const ![] h 0x00000000#32 i)

/-- An [a, 1] column spread along the rows of an [a, b] array reads, at (r, t), the column's entry r. -/
theorem col_bcast_apply {α : Type} {a b : ℕ} (v : (⟨2, ![a, 1]⟩ : Shape).Idx → α)
    (h : (⟨2, ![a, 1]⟩ : Shape).BroadcastsInDim ⟨2, ![a, b]⟩ (![0, 1] : Fin 2 → Fin 2)) (r : Fin a) (t : Fin b) :
    broadcastInDim ⟨2, ![a, b]⟩ ![0, 1] h v (ix2 r t) = v (ix2 r (0 : Fin 1)) :=
  broadcastInDim_apply _ h v (ix2 r t) (ix2 r (0 : Fin 1)) (fun ax => by
    match ax with
    | ⟨0, _⟩ =>
      show r.val = if a = 1 then 0 else r.val
      split_ifs with ha
      · have := r.isLt; omega
      · rfl
    | ⟨1, _⟩ =>
      show (0 : ℕ) = if (1 : ℕ) = 1 then 0 else t.val
      rw [if_pos rfl])

/-- A vector of length a laid as an [a, 1] column reads, at (r, 0), the vector's entry r. -/
theorem vec_col_apply {α : Type} {a : ℕ} (v : (⟨1, ![a]⟩ : Shape).Idx → α)
    (h : (⟨1, ![a]⟩ : Shape).BroadcastsInDim ⟨2, ![a, 1]⟩ (![0] : Fin 1 → Fin 2)) (r : Fin a) :
    broadcastInDim ⟨2, ![a, 1]⟩ ![0] h v (ix2 r (0 : Fin 1)) = v (ix1 r) :=
  broadcastInDim_apply _ h v (ix2 r (0 : Fin 1)) (ix1 r) (fun ax => by
    match ax with
    | ⟨0, _⟩ =>
      show r.val = if a = 1 then 0 else r.val
      split_ifs with ha
      · have := r.isLt; omega
      · rfl)

/-- A vector of length a kept as a column and spread along the rows of an [a, b] array reads, at (r, t), its entry r. -/
theorem kept_apply {α : Type} {a b : ℕ} (v : (⟨1, ![a]⟩ : Shape).Idx → α)
    (hc : (⟨1, ![a]⟩ : Shape).BroadcastsInDim ⟨2, ![a, 1]⟩ (![0] : Fin 1 → Fin 2))
    (hb : (⟨2, ![a, 1]⟩ : Shape).BroadcastsInDim ⟨2, ![a, b]⟩ (![0, 1] : Fin 2 → Fin 2)) (r : Fin a) (t : Fin b) :
    broadcastInDim ⟨2, ![a, b]⟩ ![0, 1] hb (broadcastInDim ⟨2, ![a, 1]⟩ ![0] hc v) (ix2 r t) = v (ix1 r) :=
  (col_bcast_apply _ hb r t).trans (vec_col_apply v hc r)

/-- A layer's self-loop stage at (r, k): the rectifier of (agg + d · xw) + b, with the coefficient column d spread along
    the rows and the bias b repeated down them. -/
theorem self_stage_apply {M N : ℕ} (agg xw : FVec Ideal ⟨2, ![M, N]⟩ .f32) (d : FVec Ideal ⟨2, ![M, 1]⟩ .f32)
    (b : FVec Ideal ⟨1, ![N]⟩ .f32)
    (hd : (⟨2, ![M, 1]⟩ : Shape).BroadcastsInDim ⟨2, ![M, N]⟩ (![0, 1] : Fin 2 → Fin 2))
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (r : Fin M) (k : Fin N) :
    maximumf (addf (addf agg (mulf (broadcastInDim ⟨2, ![M, N]⟩ ![0, 1] hd d) xw))
        (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 r k)
      = relu ((agg (ix2 r k) + d (ix2 r (0 : Fin 1)) * xw (ix2 r k)) + b (ix1 k)) := by
  refine (relu_apply _ h0 (ix2 r k)).trans (congrArg relu ?_)
  exact congrArg₂ (fun u v : EReal => (agg (ix2 r k) + u * xw (ix2 r k)) + v) (col_bcast_apply d hd r k)
    (HostAffine.bias_bcast b h1 h2 r k)

/-- The host's maximum along axis 1 of an [a, b] array from an initial value, at row r: the fold of max from that value
    over the entries of row r. -/
theorem rowmax_fold_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun d => x (ix2 r d)) := by
  have h : (⟨2, ![a, b]⟩ : Shape).Reduces [1] ⟨1, ![a]⟩ := let ⟨e, f⟩ := h'; ⟨e, Nat.one_pos, f⟩
  refine (Host.reduce_eq_fold_single (FloatOps.maximumf (F := Ideal) (φ := .f32)) x init h' h hu (ix1 r)).trans ?_
  have hf : (x ∘ h.lift (ix1 r)) = fun d : Fin b => x (ix2 r d) :=
    funext fun d => congrArg x (funext fun ax => Fin.ext (by
      match ax with
      | ⟨0, _⟩ => rfl
      | ⟨1, _⟩ => rfl))
  exact congrArg (fun f => Finset.fold max (init (Shape.Idx.first hu)) f (Finset.univ : Finset (Fin b))) hf

/-- The row maximum of an [a, 2] array as the reference computes it — the fold from minus infinity, then once more the
    maximum with minus infinity — is, at row r, `rowMax` of that row. -/
theorem rowmax_apply {a : ℕ} (S : FVec Ideal ⟨2, ![a, 2]⟩ .f32)
    (h' : (⟨2, ![a, 2]⟩ : Shape).ReducesTo [1] ⟨1, ![a]⟩) (hu : 0 < (⟨0, ![]⟩ : Shape).numel)
    (h0 : (⟨0, ![]⟩ : Shape).BroadcastsInDim ⟨1, ![a]⟩ (![] : Fin 0 → Fin 1)) (r : Fin a) :
    maximumf (broadcastInDim ⟨1, ![a]⟩ ![] h0 (constant (F := Ideal) ⟨0, ![]⟩ .f32 0xFF800000#32))
        (Host.reduce (FloatOps.maximumf (F := Ideal) (φ := .f32)) S (constant (F := Ideal) ⟨0, ![]⟩ .f32 0xFF800000#32) h' hu) (ix1 r)
      = rowMax (fun u => S (ix2 r u)) := by
  refine (congrArg₂ (fun u v : EReal => max u v) (HostAffine.bcast_const ![] h0 0xFF800000#32 (ix1 r))
    (rowmax_fold_apply S _ h' hu r)).trans ?_
  exact max_bottom_rowMax (fun u => S (ix2 r u))

/-- The softmax along the rows of an [a, 2] array as the reference computes it, at (r, t): `softmaxRow` of row r. -/
theorem softmax_apply {a : ℕ} (S : FVec Ideal ⟨2, ![a, 2]⟩ .f32)
    (h' : (⟨2, ![a, 2]⟩ : Shape).ReducesTo [1] ⟨1, ![a]⟩) (hu : 0 < (⟨0, ![]⟩ : Shape).numel)
    (h0 : (⟨0, ![]⟩ : Shape).BroadcastsInDim ⟨1, ![a]⟩ (![] : Fin 0 → Fin 1))
    (hc : (⟨1, ![a]⟩ : Shape).BroadcastsInDim ⟨2, ![a, 1]⟩ (![0] : Fin 1 → Fin 2))
    (hb : (⟨2, ![a, 1]⟩ : Shape).BroadcastsInDim ⟨2, ![a, 2]⟩ (![0, 1] : Fin 2 → Fin 2)) (r : Fin a) (t : Fin 2)
    (E : FVec Ideal ⟨2, ![a, 2]⟩ .f32)
    (hE : E = Host.exp (subf S (broadcastInDim ⟨2, ![a, 2]⟩ ![0, 1] hb (broadcastInDim ⟨2, ![a, 1]⟩ ![0] hc
      (maximumf (broadcastInDim ⟨1, ![a]⟩ ![] h0 (constant (F := Ideal) ⟨0, ![]⟩ .f32 0xFF800000#32))
        (Host.reduce (FloatOps.maximumf (F := Ideal) (φ := .f32)) S (constant (F := Ideal) ⟨0, ![]⟩ .f32 0xFF800000#32) h' hu)))))) :
    Host.divf E (broadcastInDim ⟨2, ![a, 2]⟩ ![0, 1] hb (broadcastInDim ⟨2, ![a, 1]⟩ ![0] hc
        (Host.reduceAdd E (constant (F := Ideal) ⟨0, ![]⟩ .f32 0x00000000#32) h' hu))) (ix2 r t)
      = softmaxRow (fun u => S (ix2 r u)) t := by
  have hexp : ∀ u : Fin 2, E (ix2 r u) = Ideal.exp (S (ix2 r u) - rowMax (fun u => S (ix2 r u))) := fun u => by
    rw [hE]
    exact congrArg (fun m : EReal => Ideal.exp (S (ix2 r u) - m))
      ((kept_apply _ hc hb r u).trans (rowmax_apply S h' hu h0 r))
  have hsum : Host.reduceAdd E (constant (F := Ideal) ⟨0, ![]⟩ .f32 0x00000000#32) h' hu (ix1 r)
      = ∑ u : Fin 2, Ideal.exp (S (ix2 r u) - rowMax (fun u => S (ix2 r u))) := by
    refine (HostAffine.rowsum_apply E _ h' hu r).trans ?_
    refine (congrArg (fun z : EReal => z + ∑ d : Fin 2, E (ix2 r d)) Ideal.ofBits_zero_f32).trans ?_
    rw [zero_add]
    exact Finset.sum_congr rfl fun u _ => hexp u
  exact congrArg₂ (fun n m : EReal => Ideal.div n m) (hexp t) ((kept_apply _ hc hb r t).trans hsum)

/-! ## The three stages -/

/-- The encoder followed by the first layer's weight, at node r: `encRow` of the node's input row. -/
theorem x1_apply (a0 : (⟨S100000x16, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (r : Fin 100000) (q : Fin 128) :
    val_main_v9 (F := Ideal) a0 a3 a4 a5 a6 a7 (ix2 r q) = encRow (fun k => a0 (ix2 r k)) a3 a4 a5 a6 a7 q := by
  refine (dot_apply dot_S100000x128_S128x128_S100000x128_1_0_0_1_n_n rfl rfl rfl rfl rfl rfl
    (val_main_v8 (F := Ideal) a0 a3 a4 a5 a6) a7 r q).trans ?_
  refine congrArg (fun x => lin x a7 q) (funext fun k => ?_)
  refine (dot_bias_apply dot_S100000x128_S128x128_S100000x128_1_0_0_1_n_n rfl rfl rfl rfl rfl rfl
    (val_main_v4 (F := Ideal) a0 a3 a4) a5 a6 bcast_S128_S1x128_1 bcast_S1x128_S100000x128_0_1 r k).trans ?_
  refine congrArg (fun x => aff x a5 a6 k) (funext fun j => ?_)
  refine (relu_apply (val_main_v3 (F := Ideal) a0 a3 a4) bcast_S_S100000x128 (ix2 r j)).trans ?_
  exact congrArg relu (dot_bias_apply dot_S100000x16_S16x128_S100000x128_1_0_0_1_n_n rfl rfl rfl rfl rfl rfl
    a0 a3 a4 bcast_S128_S1x128_1 bcast_S1x128_S100000x128_0_1 r j)

/-- A layer's output at node r, before the next weight: `selfRow` of row r of the aggregated rows, of row r of the
    node's own transformed rows and of the node's coefficient — the first layer. -/
theorem v57_apply (a0 : (⟨S100000x16, .f32⟩ : BufTy).Contents (Elt Ideal)) (a1 : (⟨S2x1600000, .i32⟩ : BufTy).Contents (Elt Ideal)) (a2 : (⟨S1600000, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (r : Fin 100000) (k : Fin 128) :
    val_main_v57 (F := Ideal) a0 a1 a2 a3 a4 a5 a6 a7 a8 (ix2 r k)
      = selfRow (fun k => val_main_v48 (F := Ideal) a0 a1 a2 a3 a4 a5 a6 a7 (ix2 r k)) (fun k => val_main_v9 (F := Ideal) a0 a3 a4 a5 a6 a7 (ix2 r k))
          (val_main_v50 (F := Ideal) a1 a2 (ix2 r (0 : Fin 1))) a8 k :=
  self_stage_apply (val_main_v48 (F := Ideal) a0 a1 a2 a3 a4 a5 a6 a7) (val_main_v9 (F := Ideal) a0 a3 a4 a5 a6 a7) (val_main_v50 (F := Ideal) a1 a2) a8
    bcast_S100000x1_S100000x128_0_1 bcast_S128_S1x128_1 bcast_S1x128_S100000x128_0_1 bcast_S_S100000x128 r k

/-- The first layer's output times the second layer's weight, at node r: `layerRow`. -/
theorem x2_apply (a0 : (⟨S100000x16, .f32⟩ : BufTy).Contents (Elt Ideal)) (a1 : (⟨S2x1600000, .i32⟩ : BufTy).Contents (Elt Ideal)) (a2 : (⟨S1600000, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (r : Fin 100000) (q : Fin 128) :
    val_main_v58 (F := Ideal) a0 a1 a2 a3 a4 a5 a6 a7 a8 a9 (ix2 r q)
      = layerRow (fun k => val_main_v48 (F := Ideal) a0 a1 a2 a3 a4 a5 a6 a7 (ix2 r k)) (fun k => val_main_v9 (F := Ideal) a0 a3 a4 a5 a6 a7 (ix2 r k))
          (val_main_v50 (F := Ideal) a1 a2 (ix2 r (0 : Fin 1))) a8 a9 q := by
  refine (dot_apply dot_S100000x128_S128x128_S100000x128_1_0_0_1_n_n rfl rfl rfl rfl rfl rfl
    (val_main_v57 (F := Ideal) a0 a1 a2 a3 a4 a5 a6 a7 a8) a9 r q).trans ?_
  exact congrArg (fun x => lin x a9 q) (funext fun k => v57_apply a0 a1 a2 a3 a4 a5 a6 a7 a8 r k)

/-- The second layer's output at node r: `selfRow` of row r of its aggregated rows, of row r of the first layer's
    transformed rows and of the node's coefficient. -/
theorem v106_apply (a0 : (⟨S100000x16, .f32⟩ : BufTy).Contents (Elt Ideal)) (a1 : (⟨S2x1600000, .i32⟩ : BufTy).Contents (Elt Ideal)) (a2 : (⟨S1600000, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (r : Fin 100000) (k : Fin 128) :
    val_main_v106 (F := Ideal) a0 a1 a2 a3 a4 a5 a6 a7 a8 a9 a10 (ix2 r k)
      = selfRow (fun k => val_main_v97 (F := Ideal) a0 a1 a2 a3 a4 a5 a6 a7 a8 a9 (ix2 r k)) (fun k => val_main_v58 (F := Ideal) a0 a1 a2 a3 a4 a5 a6 a7 a8 a9 (ix2 r k))
          (val_main_v99 (F := Ideal) a1 a2 (ix2 r (0 : Fin 1))) a10 k :=
  self_stage_apply (val_main_v97 (F := Ideal) a0 a1 a2 a3 a4 a5 a6 a7 a8 a9) (val_main_v58 (F := Ideal) a0 a1 a2 a3 a4 a5 a6 a7 a8 a9) (val_main_v99 (F := Ideal) a1 a2) a10
    bcast_S100000x1_S100000x128_0_1 bcast_S128_S1x128_1 bcast_S1x128_S100000x128_0_1 bcast_S_S100000x128 r k

/-- The two logits of node r. -/
theorem v115_apply (a0 : (⟨S100000x16, .f32⟩ : BufTy).Contents (Elt Ideal)) (a1 : (⟨S2x1600000, .i32⟩ : BufTy).Contents (Elt Ideal)) (a2 : (⟨S1600000, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x2, .f32⟩ : BufTy).Contents (Elt Ideal)) (a14 : (⟨S2, .f32⟩ : BufTy).Contents (Elt Ideal)) (r : Fin 100000) (u : Fin 2) :
    val_main_v115 (F := Ideal) a0 a1 a2 a3 a4 a5 a6 a7 a8 a9 a10 a11 a12 a13 a14 (ix2 r u)
      = logits (fun k => val_main_v97 (F := Ideal) a0 a1 a2 a3 a4 a5 a6 a7 a8 a9 (ix2 r k)) (fun k => val_main_v58 (F := Ideal) a0 a1 a2 a3 a4 a5 a6 a7 a8 a9 (ix2 r k))
          (val_main_v99 (F := Ideal) a1 a2 (ix2 r (0 : Fin 1))) a10 a11 a12 a13 a14 u := by
  refine (dot_bias_apply dot_S100000x128_S128x2_S100000x2_1_0_0_1_n_n rfl rfl rfl rfl rfl rfl
    (val_main_v111 (F := Ideal) a0 a1 a2 a3 a4 a5 a6 a7 a8 a9 a10 a11 a12) a13 a14 bcast_S2_S1x2_1 bcast_S1x2_S100000x2_0_1 r u).trans ?_
  refine congrArg (fun x => aff x a13 a14 u) (funext fun j => ?_)
  refine (relu_apply (val_main_v110 (F := Ideal) a0 a1 a2 a3 a4 a5 a6 a7 a8 a9 a10 a11 a12) bcast_S_S100000x128 (ix2 r j)).trans (congrArg relu ?_)
  refine (dot_bias_apply dot_S100000x128_S128x128_S100000x128_1_0_0_1_n_n rfl rfl rfl rfl rfl rfl
    (val_main_v106 (F := Ideal) a0 a1 a2 a3 a4 a5 a6 a7 a8 a9 a10) a11 a12 bcast_S128_S1x128_1 bcast_S1x128_S100000x128_0_1 r j).trans ?_
  exact congrArg (fun x => aff x a11 a12 j) (funext fun k => v106_apply a0 a1 a2 a3 a4 a5 a6 a7 a8 a9 a10 r k)

/-- The network's output at node r: `decRow`. -/
theorem out_apply (a0 : (⟨S100000x16, .f32⟩ : BufTy).Contents (Elt Ideal)) (a1 : (⟨S2x1600000, .i32⟩ : BufTy).Contents (Elt Ideal)) (a2 : (⟨S1600000, .f32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x2, .f32⟩ : BufTy).Contents (Elt Ideal)) (a14 : (⟨S2, .f32⟩ : BufTy).Contents (Elt Ideal)) (r : Fin 100000) (u : Fin 2) :
    val_main_v126 (F := Ideal) a0 a1 a2 a3 a4 a5 a6 a7 a8 a9 a10 a11 a12 a13 a14 (ix2 r u)
      = decRow (fun k => val_main_v97 (F := Ideal) a0 a1 a2 a3 a4 a5 a6 a7 a8 a9 (ix2 r k)) (fun k => val_main_v58 (F := Ideal) a0 a1 a2 a3 a4 a5 a6 a7 a8 a9 (ix2 r k))
          (val_main_v99 (F := Ideal) a1 a2 (ix2 r (0 : Fin 1))) a10 a11 a12 a13 a14 u := by
  refine (softmax_apply (val_main_v115 (F := Ideal) a0 a1 a2 a3 a4 a5 a6 a7 a8 a9 a10 a11 a12 a13 a14) reducesTo_S100000x2_S100000_d1 h_S_ bcast_S_S100000
    bcast_S100000_S100000x1_0 bcast_S100000x1_S100000x2_0_1 r u (val_main_v122 (F := Ideal) a0 a1 a2 a3 a4 a5 a6 a7 a8 a9 a10 a11 a12 a13 a14) rfl).trans ?_
  exact congrArg (fun s => softmaxRow s u) (funext fun t => v115_apply a0 a1 a2 a3 a4 a5 a6 a7 a8 a9 a10 a11 a12 a13 a14 r t)

end Cert.ReferenceIdeal.Rows

end
-- ==== Proof.Glue.lean ====
/-
  The host operations between the regions, read as whole arrays.

  Between its three regions the idealized kernel runs the same host operations as the reference: the two rows of the edge
  list, the degrees by a scatter-add of the edge weights, their inverse roots, the per-edge weights by two gathers, the
  column of squared inverse-root degrees, and per layer one gather of the transformed rows, a product with the edge
  weights and one scatter-add.  Nothing here is read at an index: each stretch's result is, as a whole array, the
  reference's own stage of the arrays it starts from.  The one difference in spelling — the kernel gathers rows it stored
  in the shorter float format and widens them afterwards — is no difference over the extended reals.
-/
import proofs.«153621_j16879221473930_2_alg».proof.Proof.Gen.KernelIdeal.Frame
import proofs.«153621_j16879221473930_2_alg».proof.Proof.Gen.ReferenceIdeal.Read
import Idealize.ShloMosaic.Lib.StableHlo.Run
import Idealize.ShloMosaic.PureOps.Ideal

set_option maxRecDepth 16384

noncomputable section

namespace Cert.KernelIdeal.Glue

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-! ## Before the encoder: the two rows of the edge list -/

/-- The source nodes: row 0 of the edge list, as a vector. -/
theorem src_of : StableHlo.after hostOps0 W (Proc.devRef .tc main_v1) = val_main_v11 (F := Ideal) (W (Proc.devRef .tc main_arg1)) := by
  after_results_simp
  rfl

/-- The target nodes: row 1 of the edge list, as a vector. -/
theorem dst_of : StableHlo.after hostOps0 W (Proc.devRef .tc main_v3) = val_main_v13 (F := Ideal) (W (Proc.devRef .tc main_arg1)) := by
  after_results_simp
  rfl

/-- The stretch before the encoder writes none of the argument arrays. -/
theorem keep0_main_arg0 : StableHlo.after hostOps0 W (Proc.devRef .tc main_arg0) = W (Proc.devRef .tc main_arg0) := by
  after_results_simp
theorem keep0_main_arg2 : StableHlo.after hostOps0 W (Proc.devRef .tc main_arg2) = W (Proc.devRef .tc main_arg2) := by
  after_results_simp
theorem keep0_main_arg3 : StableHlo.after hostOps0 W (Proc.devRef .tc main_arg3) = W (Proc.devRef .tc main_arg3) := by
  after_results_simp
theorem keep0_main_arg4 : StableHlo.after hostOps0 W (Proc.devRef .tc main_arg4) = W (Proc.devRef .tc main_arg4) := by
  after_results_simp
theorem keep0_main_arg5 : StableHlo.after hostOps0 W (Proc.devRef .tc main_arg5) = W (Proc.devRef .tc main_arg5) := by
  after_results_simp
theorem keep0_main_arg6 : StableHlo.after hostOps0 W (Proc.devRef .tc main_arg6) = W (Proc.devRef .tc main_arg6) := by
  after_results_simp
theorem keep0_main_arg7 : StableHlo.after hostOps0 W (Proc.devRef .tc main_arg7) = W (Proc.devRef .tc main_arg7) := by
  after_results_simp
theorem keep0_main_arg8 : StableHlo.after hostOps0 W (Proc.devRef .tc main_arg8) = W (Proc.devRef .tc main_arg8) := by
  after_results_simp
theorem keep0_main_arg9 : StableHlo.after hostOps0 W (Proc.devRef .tc main_arg9) = W (Proc.devRef .tc main_arg9) := by
  after_results_simp
theorem keep0_main_arg10 : StableHlo.after hostOps0 W (Proc.devRef .tc main_arg10) = W (Proc.devRef .tc main_arg10) := by
  after_results_simp
theorem keep0_main_arg11 : StableHlo.after hostOps0 W (Proc.devRef .tc main_arg11) = W (Proc.devRef .tc main_arg11) := by
  after_results_simp
theorem keep0_main_arg12 : StableHlo.after hostOps0 W (Proc.devRef .tc main_arg12) = W (Proc.devRef .tc main_arg12) := by
  after_results_simp
theorem keep0_main_arg13 : StableHlo.after hostOps0 W (Proc.devRef .tc main_arg13) = W (Proc.devRef .tc main_arg13) := by
  after_results_simp
theorem keep0_main_arg14 : StableHlo.after hostOps0 W (Proc.devRef .tc main_arg14) = W (Proc.devRef .tc main_arg14) := by
  after_results_simp

/-! ## Between the encoder and the first layer -/

set_option maxHeartbeats 4000000 in
/-- The column of squared inverse-root degrees. -/
theorem dis2_of (a1 : (⟨Cert.ReferenceIdeal.S2x1600000, .i32⟩ : BufTy).Contents (Elt Ideal)) (a2 : (⟨Cert.ReferenceIdeal.S1600000, .f32⟩ : BufTy).Contents (Elt Ideal))
    (h3 : W (Proc.devRef .tc main_v3) = val_main_v13 (F := Ideal) a1) (h2 : W (Proc.devRef .tc main_arg2) = a2) :
    StableHlo.after hostOps1 W (Proc.devRef .tc main_v28) = val_main_v50 (F := Ideal) a1 a2 := by
  after_results_simp
  rw [h3, h2]
  rfl

set_option maxHeartbeats 4000000 in
/-- The per-edge weights: the inverse-root degree of the source, times the edge weight, times that of the target. -/
theorem norm_of (a1 : (⟨Cert.ReferenceIdeal.S2x1600000, .i32⟩ : BufTy).Contents (Elt Ideal)) (a2 : (⟨Cert.ReferenceIdeal.S1600000, .f32⟩ : BufTy).Contents (Elt Ideal))
    (h1 : W (Proc.devRef .tc main_v1) = val_main_v11 (F := Ideal) a1) (h3 : W (Proc.devRef .tc main_v3) = val_main_v13 (F := Ideal) a1)
    (h2 : W (Proc.devRef .tc main_arg2) = a2) :
    StableHlo.after hostOps1 W (Proc.devRef .tc main_v26) = val_main_v35 (F := Ideal) a1 a2 := by
  after_results_simp
  rw [h1, h3, h2]
  rfl

set_option maxHeartbeats 16000000 in
/-- The first aggregation: the encoder's rows gathered at the source nodes, weighted per edge, and added up at the target
    nodes. -/
theorem agg1_of (a0 : (⟨Cert.ReferenceIdeal.S100000x16, .f32⟩ : BufTy).Contents (Elt Ideal)) (a1 : (⟨Cert.ReferenceIdeal.S2x1600000, .i32⟩ : BufTy).Contents (Elt Ideal)) (a2 : (⟨Cert.ReferenceIdeal.S1600000, .f32⟩ : BufTy).Contents (Elt Ideal)) (a3 : (⟨Cert.ReferenceIdeal.S16x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) (a6 : (⟨Cert.ReferenceIdeal.S128, .f32⟩ : BufTy).Contents (Elt Ideal)) (a7 : (⟨Cert.ReferenceIdeal.S128x128, .f32⟩ : BufTy).Contents (Elt Ideal))
    (h1 : W (Proc.devRef .tc main_v1) = val_main_v11 (F := Ideal) a1) (h3 : W (Proc.devRef .tc main_v3) = val_main_v13 (F := Ideal) a1)
    (h2 : W (Proc.devRef .tc main_arg2) = a2) (h4 : W (Proc.devRef .tc main_v4) = val_main_v9 (F := Ideal) a0 a3 a4 a5 a6 a7) :
    StableHlo.after hostOps1 W (Proc.devRef .tc main_v42) = val_main_v48 (F := Ideal) a0 a1 a2 a3 a4 a5 a6 a7 := by
  after_results_simp
  rw [h1, h3, h2, h4]
  rfl

/-- The stretch between the encoder and the first layer writes none of these. -/
theorem keep1_main_v1 : StableHlo.after hostOps1 W (Proc.devRef .tc main_v1) = W (Proc.devRef .tc main_v1) := by
  after_results_simp
theorem keep1_main_v3 : StableHlo.after hostOps1 W (Proc.devRef .tc main_v3) = W (Proc.devRef .tc main_v3) := by
  after_results_simp
theorem keep1_main_v4 : StableHlo.after hostOps1 W (Proc.devRef .tc main_v4) = W (Proc.devRef .tc main_v4) := by
  after_results_simp
theorem keep1_main_arg8 : StableHlo.after hostOps1 W (Proc.devRef .tc main_arg8) = W (Proc.devRef .tc main_arg8) := by
  after_results_simp
theorem keep1_main_arg9 : StableHlo.after hostOps1 W (Proc.devRef .tc main_arg9) = W (Proc.devRef .tc main_arg9) := by
  after_results_simp
theorem keep1_main_arg10 : StableHlo.after hostOps1 W (Proc.devRef .tc main_arg10) = W (Proc.devRef .tc main_arg10) := by
  after_results_simp
theorem keep1_main_arg11 : StableHlo.after hostOps1 W (Proc.devRef .tc main_arg11) = W (Proc.devRef .tc main_arg11) := by
  after_results_simp
theorem keep1_main_arg12 : StableHlo.after hostOps1 W (Proc.devRef .tc main_arg12) = W (Proc.devRef .tc main_arg12) := by
  after_results_simp
theorem keep1_main_arg13 : StableHlo.after hostOps1 W (Proc.devRef .tc main_arg13) = W (Proc.devRef .tc main_arg13) := by
  after_results_simp
theorem keep1_main_arg14 : StableHlo.after hostOps1 W (Proc.devRef .tc main_arg14) = W (Proc.devRef .tc main_arg14) := by
  after_results_simp

/-! ## Between the first layer and the decoder -/

set_option maxHeartbeats 16000000 in
/-- The second aggregation: the first layer's rows gathered at the source nodes, weighted per edge, and added up at the
    target nodes. -/
theorem agg2_of (a0 : (⟨Cert.ReferenceIdeal.S100000x16, .f32⟩ : BufTy).Contents (Elt Ideal)) (a1 : (⟨Cert.ReferenceIdeal.S2x1600000, .i32⟩ : BufTy).Contents (Elt Ideal)) (a2 : (⟨Cert.ReferenceIdeal.S1600000, .f32⟩ : BufTy).Contents (Elt Ideal)) (a3 : (⟨Cert.ReferenceIdeal.S16x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) (a6 : (⟨Cert.ReferenceIdeal.S128, .f32⟩ : BufTy).Contents (Elt Ideal)) (a7 : (⟨Cert.ReferenceIdeal.S128x128, .f32⟩ : BufTy).Contents (Elt Ideal)) (a8 : (⟨Cert.ReferenceIdeal.S128, .f32⟩ : BufTy).Contents (Elt Ideal)) (a9 : (⟨Cert.ReferenceIdeal.S128x128, .f32⟩ : BufTy).Contents (Elt Ideal))
    (h1 : W (Proc.devRef .tc main_v1) = val_main_v60 (F := Ideal) a1) (h3 : W (Proc.devRef .tc main_v3) = val_main_v62 (F := Ideal) a1)
    (h26 : W (Proc.devRef .tc main_v26) = val_main_v84 (F := Ideal) a1 a2)
    (h43 : W (Proc.devRef .tc main_v43) = val_main_v58 (F := Ideal) a0 a1 a2 a3 a4 a5 a6 a7 a8 a9) :
    StableHlo.after hostOps2 W (Proc.devRef .tc main_v57) = val_main_v97 (F := Ideal) a0 a1 a2 a3 a4 a5 a6 a7 a8 a9 := by
  after_results_simp
  rw [h1, h3, h26, h43]
  rfl

/-- The stretch between the first layer and the decoder writes none of these. -/
theorem keep2_main_v28 : StableHlo.after hostOps2 W (Proc.devRef .tc main_v28) = W (Proc.devRef .tc main_v28) := by
  after_results_simp
theorem keep2_main_v43 : StableHlo.after hostOps2 W (Proc.devRef .tc main_v43) = W (Proc.devRef .tc main_v43) := by
  after_results_simp
theorem keep2_main_arg10 : StableHlo.after hostOps2 W (Proc.devRef .tc main_arg10) = W (Proc.devRef .tc main_arg10) := by
  after_results_simp
theorem keep2_main_arg11 : StableHlo.after hostOps2 W (Proc.devRef .tc main_arg11) = W (Proc.devRef .tc main_arg11) := by
  after_results_simp
theorem keep2_main_arg12 : StableHlo.after hostOps2 W (Proc.devRef .tc main_arg12) = W (Proc.devRef .tc main_arg12) := by
  after_results_simp
theorem keep2_main_arg13 : StableHlo.after hostOps2 W (Proc.devRef .tc main_arg13) = W (Proc.devRef .tc main_arg13) := by
  after_results_simp
theorem keep2_main_arg14 : StableHlo.after hostOps2 W (Proc.devRef .tc main_arg14) = W (Proc.devRef .tc main_arg14) := by
  after_results_simp

/-! ## The second layer's copies of the edge stages are the first layer's -/

/-- The reference computes the source and target nodes, the per-edge weights and the degree column once per layer; the two
    computations are the same operations of the same arrays. -/
theorem src_again (a1 : (⟨Cert.ReferenceIdeal.S2x1600000, .i32⟩ : BufTy).Contents (Elt Ideal)) : val_main_v11 (F := Ideal) a1 = val_main_v60 (F := Ideal) a1 := rfl
theorem dst_again (a1 : (⟨Cert.ReferenceIdeal.S2x1600000, .i32⟩ : BufTy).Contents (Elt Ideal)) : val_main_v13 (F := Ideal) a1 = val_main_v62 (F := Ideal) a1 := rfl
theorem norm_again (a1 : (⟨Cert.ReferenceIdeal.S2x1600000, .i32⟩ : BufTy).Contents (Elt Ideal)) (a2 : (⟨Cert.ReferenceIdeal.S1600000, .f32⟩ : BufTy).Contents (Elt Ideal)) : val_main_v35 (F := Ideal) a1 a2 = val_main_v84 (F := Ideal) a1 a2 := rfl
theorem dis2_again (a1 : (⟨Cert.ReferenceIdeal.S2x1600000, .i32⟩ : BufTy).Contents (Elt Ideal)) (a2 : (⟨Cert.ReferenceIdeal.S1600000, .f32⟩ : BufTy).Contents (Elt Ideal)) : val_main_v50 (F := Ideal) a1 a2 = val_main_v99 (F := Ideal) a1 a2 := rfl

end Cert.KernelIdeal.Glue

end
-- ==== Proof.Fold.lean ====
/-
  The contents of the idealized kernel's buffers at each boundary, as the reference's stages.

  The generated frame names the buffers' contents after each of @main's six segments (W1 … W6).  Followed from the launch
  memory: after the first stretch the two rows of the edge list are the reference's; after the encoder's region its output
  array is the reference's encoder-and-first-weight stage (every node's row is `encRow` of its feature row, on both sides);
  after the second stretch the aggregated rows, the per-edge weights and the degree column are the reference's; after the
  first layer's region its output is the reference's second transformed array (`layerRow`, row by row); after the third
  stretch the second aggregation is the reference's; and after the decoder's region the result is the reference's result
  (`decRow`, row by row).  So the kernel's run ends with its result at the reference's last stage of the arguments.
-/
import proofs.«153621_j16879221473930_2_alg».proof.Proof.KRun
import proofs.«153621_j16879221473930_2_alg».proof.Proof.Region0
import proofs.«153621_j16879221473930_2_alg».proof.Proof.Region1
import proofs.«153621_j16879221473930_2_alg».proof.Proof.Region2
import proofs.«153621_j16879221473930_2_alg».proof.Proof.KPay
import proofs.«153621_j16879221473930_2_alg».proof.Proof.RefRows
import proofs.«153621_j16879221473930_2_alg».proof.Proof.Glue

set_option maxRecDepth 16384

noncomputable section

namespace Cert.KernelIdeal.Gen

open Cert.KernelIdeal Cert.KernelIdeal.Gen Cert.ReferenceIdeal.Read Cert.GraphNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the first stretch -/

theorem W1_arg0 : W1 m ρ c (Proc.devRef .tc main_arg0) = (m ((c : Thread nD τ).loc main_arg0)) := (Glue.keep0_main_arg0 (W0 m ρ c)).trans rfl
theorem W1_arg2 : W1 m ρ c (Proc.devRef .tc main_arg2) = (m ((c : Thread nD τ).loc main_arg2)) := (Glue.keep0_main_arg2 (W0 m ρ c)).trans rfl
theorem W1_arg3 : W1 m ρ c (Proc.devRef .tc main_arg3) = (m ((c : Thread nD τ).loc main_arg3)) := (Glue.keep0_main_arg3 (W0 m ρ c)).trans rfl
theorem W1_arg4 : W1 m ρ c (Proc.devRef .tc main_arg4) = (m ((c : Thread nD τ).loc main_arg4)) := (Glue.keep0_main_arg4 (W0 m ρ c)).trans rfl
theorem W1_arg5 : W1 m ρ c (Proc.devRef .tc main_arg5) = (m ((c : Thread nD τ).loc main_arg5)) := (Glue.keep0_main_arg5 (W0 m ρ c)).trans rfl
theorem W1_arg6 : W1 m ρ c (Proc.devRef .tc main_arg6) = (m ((c : Thread nD τ).loc main_arg6)) := (Glue.keep0_main_arg6 (W0 m ρ c)).trans rfl
theorem W1_arg7 : W1 m ρ c (Proc.devRef .tc main_arg7) = (m ((c : Thread nD τ).loc main_arg7)) := (Glue.keep0_main_arg7 (W0 m ρ c)).trans rfl
theorem W1_arg8 : W1 m ρ c (Proc.devRef .tc main_arg8) = (m ((c : Thread nD τ).loc main_arg8)) := (Glue.keep0_main_arg8 (W0 m ρ c)).trans rfl
theorem W1_arg9 : W1 m ρ c (Proc.devRef .tc main_arg9) = (m ((c : Thread nD τ).loc main_arg9)) := (Glue.keep0_main_arg9 (W0 m ρ c)).trans rfl
theorem W1_arg10 : W1 m ρ c (Proc.devRef .tc main_arg10) = (m ((c : Thread nD τ).loc main_arg10)) := (Glue.keep0_main_arg10 (W0 m ρ c)).trans rfl
theorem W1_arg11 : W1 m ρ c (Proc.devRef .tc main_arg11) = (m ((c : Thread nD τ).loc main_arg11)) := (Glue.keep0_main_arg11 (W0 m ρ c)).trans rfl
theorem W1_arg12 : W1 m ρ c (Proc.devRef .tc main_arg12) = (m ((c : Thread nD τ).loc main_arg12)) := (Glue.keep0_main_arg12 (W0 m ρ c)).trans rfl
theorem W1_arg13 : W1 m ρ c (Proc.devRef .tc main_arg13) = (m ((c : Thread nD τ).loc main_arg13)) := (Glue.keep0_main_arg13 (W0 m ρ c)).trans rfl
theorem W1_arg14 : W1 m ρ c (Proc.devRef .tc main_arg14) = (m ((c : Thread nD τ).loc main_arg14)) := (Glue.keep0_main_arg14 (W0 m ρ c)).trans rfl
theorem W1_src : W1 m ρ c (Proc.devRef .tc main_v1) = val_main_v11 (F := Ideal) (m ((c : Thread nD τ).loc main_arg1)) := (Glue.src_of (W0 m ρ c)).trans rfl
theorem W1_dst : W1 m ρ c (Proc.devRef .tc main_v3) = val_main_v13 (F := Ideal) (m ((c : Thread nD τ).loc main_arg1)) := (Glue.dst_of (W0 m ρ c)).trans rfl

/-! ## After the encoder's region -/

theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_arg2 : W2 m ρ c (Proc.devRef .tc main_arg2) = W1 m ρ c (Proc.devRef .tc main_arg2) := W2_of_ne m ρ c main_arg2 (by decide)
theorem W2_main_arg8 : W2 m ρ c (Proc.devRef .tc main_arg8) = W1 m ρ c (Proc.devRef .tc main_arg8) := W2_of_ne m ρ c main_arg8 (by decide)
theorem W2_main_arg9 : W2 m ρ c (Proc.devRef .tc main_arg9) = W1 m ρ c (Proc.devRef .tc main_arg9) := W2_of_ne m ρ c main_arg9 (by decide)
theorem W2_main_arg10 : W2 m ρ c (Proc.devRef .tc main_arg10) = W1 m ρ c (Proc.devRef .tc main_arg10) := W2_of_ne m ρ c main_arg10 (by decide)
theorem W2_main_arg11 : W2 m ρ c (Proc.devRef .tc main_arg11) = W1 m ρ c (Proc.devRef .tc main_arg11) := W2_of_ne m ρ c main_arg11 (by decide)
theorem W2_main_arg12 : W2 m ρ c (Proc.devRef .tc main_arg12) = W1 m ρ c (Proc.devRef .tc main_arg12) := W2_of_ne m ρ c main_arg12 (by decide)
theorem W2_main_arg13 : W2 m ρ c (Proc.devRef .tc main_arg13) = W1 m ρ c (Proc.devRef .tc main_arg13) := W2_of_ne m ρ c main_arg13 (by decide)
theorem W2_main_arg14 : W2 m ρ c (Proc.devRef .tc main_arg14) = W1 m ρ c (Proc.devRef .tc main_arg14) := W2_of_ne m ρ c main_arg14 (by decide)

/-- The encoder's output array is the reference's stage: on both sides row r is `encRow` of row r of the features. -/
theorem W2_x1 : W2 m ρ c (Proc.devRef .tc main_v4) = val_main_v9 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 6).trans ?_
  rw [Encoder.final (V1 m ρ) Payload.enc_apply c]
  show Encoder.encArr (W1 m ρ c (Proc.devRef .tc main_arg0)) (W1 m ρ c (Proc.devRef .tc main_arg3)) (W1 m ρ c (Proc.devRef .tc main_arg4)) (W1 m ρ c (Proc.devRef .tc main_arg5)) (W1 m ρ c (Proc.devRef .tc main_arg6)) (W1 m ρ c (Proc.devRef .tc main_arg7)) = _
  rw [W1_arg0, W1_arg3, W1_arg4, W1_arg5, W1_arg6, W1_arg7]
  funext i
  obtain ⟨r, q, rfl⟩ : ∃ (r : Fin 100000) (q : Fin 128), i = ix2 r q := ⟨i 0, i 1, eq_ix2 i⟩
  exact (Cert.ReferenceIdeal.Rows.x1_apply _ _ _ _ _ _ r q).symm

/-! ## After the second stretch -/

theorem W3_src : W3 m ρ c (Proc.devRef .tc main_v1) = val_main_v11 (F := Ideal) (m ((c : Thread nD τ).loc main_arg1)) :=
  (Glue.keep1_main_v1 (W2 m ρ c)).trans ((W2_main_v1 m ρ c).trans (W1_src m ρ c))
theorem W3_dst : W3 m ρ c (Proc.devRef .tc main_v3) = val_main_v13 (F := Ideal) (m ((c : Thread nD τ).loc main_arg1)) :=
  (Glue.keep1_main_v3 (W2 m ρ c)).trans ((W2_main_v3 m ρ c).trans (W1_dst m ρ c))
theorem W3_x1 : W3 m ρ c (Proc.devRef .tc main_v4) = val_main_v9 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  (Glue.keep1_main_v4 (W2 m ρ c)).trans (W2_x1 m ρ c)
theorem W3_arg8 : W3 m ρ c (Proc.devRef .tc main_arg8) = (m ((c : Thread nD τ).loc main_arg8)) :=
  (Glue.keep1_main_arg8 (W2 m ρ c)).trans ((W2_main_arg8 m ρ c).trans (W1_arg8 m ρ c))
theorem W3_arg9 : W3 m ρ c (Proc.devRef .tc main_arg9) = (m ((c : Thread nD τ).loc main_arg9)) :=
  (Glue.keep1_main_arg9 (W2 m ρ c)).trans ((W2_main_arg9 m ρ c).trans (W1_arg9 m ρ c))
theorem W3_arg10 : W3 m ρ c (Proc.devRef .tc main_arg10) = (m ((c : Thread nD τ).loc main_arg10)) :=
  (Glue.keep1_main_arg10 (W2 m ρ c)).trans ((W2_main_arg10 m ρ c).trans (W1_arg10 m ρ c))
theorem W3_arg11 : W3 m ρ c (Proc.devRef .tc main_arg11) = (m ((c : Thread nD τ).loc main_arg11)) :=
  (Glue.keep1_main_arg11 (W2 m ρ c)).trans ((W2_main_arg11 m ρ c).trans (W1_arg11 m ρ c))
theorem W3_arg12 : W3 m ρ c (Proc.devRef .tc main_arg12) = (m ((c : Thread nD τ).loc main_arg12)) :=
  (Glue.keep1_main_arg12 (W2 m ρ c)).trans ((W2_main_arg12 m ρ c).trans (W1_arg12 m ρ c))
theorem W3_arg13 : W3 m ρ c (Proc.devRef .tc main_arg13) = (m ((c : Thread nD τ).loc main_arg13)) :=
  (Glue.keep1_main_arg13 (W2 m ρ c)).trans ((W2_main_arg13 m ρ c).trans (W1_arg13 m ρ c))
theorem W3_arg14 : W3 m ρ c (Proc.devRef .tc main_arg14) = (m ((c : Thread nD τ).loc main_arg14)) :=
  (Glue.keep1_main_arg14 (W2 m ρ c)).trans ((W2_main_arg14 m ρ c).trans (W1_arg14 m ρ c))
theorem W3_dis2 : W3 m ρ c (Proc.devRef .tc main_v28) = val_main_v50 (F := Ideal) (m ((c : Thread nD τ).loc main_arg1)) (m ((c : Thread nD τ).loc main_arg2)) :=
  Glue.dis2_of (W2 m ρ c) _ _ ((W2_main_v3 m ρ c).trans (W1_dst m ρ c)) ((W2_main_arg2 m ρ c).trans (W1_arg2 m ρ c))
theorem W3_norm : W3 m ρ c (Proc.devRef .tc main_v26) = val_main_v35 (F := Ideal) (m ((c : Thread nD τ).loc main_arg1)) (m ((c : Thread nD τ).loc main_arg2)) :=
  Glue.norm_of (W2 m ρ c) _ _ ((W2_main_v1 m ρ c).trans (W1_src m ρ c)) ((W2_main_v3 m ρ c).trans (W1_dst m ρ c))
    ((W2_main_arg2 m ρ c).trans (W1_arg2 m ρ c))
theorem W3_agg1 : W3 m ρ c (Proc.devRef .tc main_v42) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Glue.agg1_of (W2 m ρ c) _ _ _ _ _ _ _ _ ((W2_main_v1 m ρ c).trans (W1_src m ρ c)) ((W2_main_v3 m ρ c).trans (W1_dst m ρ c))
    ((W2_main_arg2 m ρ c).trans (W1_arg2 m ρ c)) (W2_x1 m ρ c)

/-! ## After the first layer's region -/

theorem W4_main_v1 : W4 m ρ c (Proc.devRef .tc main_v1) = W3 m ρ c (Proc.devRef .tc main_v1) := W4_of_ne m ρ c main_v1 (by decide)
theorem W4_main_v3 : W4 m ρ c (Proc.devRef .tc main_v3) = W3 m ρ c (Proc.devRef .tc main_v3) := W4_of_ne m ρ c main_v3 (by decide)
theorem W4_main_v26 : W4 m ρ c (Proc.devRef .tc main_v26) = W3 m ρ c (Proc.devRef .tc main_v26) := W4_of_ne m ρ c main_v26 (by decide)
theorem W4_main_arg10 : W4 m ρ c (Proc.devRef .tc main_arg10) = W3 m ρ c (Proc.devRef .tc main_arg10) := W4_of_ne m ρ c main_arg10 (by decide)
theorem W4_main_arg11 : W4 m ρ c (Proc.devRef .tc main_arg11) = W3 m ρ c (Proc.devRef .tc main_arg11) := W4_of_ne m ρ c main_arg11 (by decide)
theorem W4_main_arg12 : W4 m ρ c (Proc.devRef .tc main_arg12) = W3 m ρ c (Proc.devRef .tc main_arg12) := W4_of_ne m ρ c main_arg12 (by decide)
theorem W4_main_arg13 : W4 m ρ c (Proc.devRef .tc main_arg13) = W3 m ρ c (Proc.devRef .tc main_arg13) := W4_of_ne m ρ c main_arg13 (by decide)
theorem W4_main_arg14 : W4 m ρ c (Proc.devRef .tc main_arg14) = W3 m ρ c (Proc.devRef .tc main_arg14) := W4_of_ne m ρ c main_arg14 (by decide)
/-- The degree column is an input of the region: it leaves it as it entered. -/
theorem W4_dis2 : W4 m ρ c (Proc.devRef .tc main_v28) = val_main_v50 (F := Ideal) (m ((c : Thread nD τ).loc main_arg1)) (m ((c : Thread nD τ).loc main_arg2)) :=
  (W4_arr m ρ c 2).trans ((((dat1 (V3 m ρ) c).arrAt_in 2 rfl _).trans (A_eq1 (V3 m ρ) c 2)).trans (W3_dis2 m ρ c))

/-- The first layer's output array is the reference's stage: on both sides row r is `layerRow` of row r of the aggregated
    rows, of the encoder's rows and of the degree column. -/
theorem W4_x2 : W4 m ρ c (Proc.devRef .tc main_v43) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  rw [Layer.final (V3 m ρ) Payload.layer_apply c]
  show Layer.layerArr (W3 m ρ c (Proc.devRef .tc main_v42)) (W3 m ρ c (Proc.devRef .tc main_v4)) (W3 m ρ c (Proc.devRef .tc main_v28)) (W3 m ρ c (Proc.devRef .tc main_arg8)) (W3 m ρ c (Proc.devRef .tc main_arg9)) = _
  rw [W3_agg1, W3_x1, W3_dis2, W3_arg8, W3_arg9]
  funext i
  obtain ⟨r, q, rfl⟩ : ∃ (r : Fin 100000) (q : Fin 128), i = ix2 r q := ⟨i 0, i 1, eq_ix2 i⟩
  exact (Cert.ReferenceIdeal.Rows.x2_apply _ _ _ _ _ _ _ _ _ _ r q).symm

/-! ## After the third stretch -/

theorem W5_x2 : W5 m ρ c (Proc.devRef .tc main_v43) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Glue.keep2_main_v43 (W4 m ρ c)).trans (W4_x2 m ρ c)
theorem W5_dis2 : W5 m ρ c (Proc.devRef .tc main_v28) = val_main_v99 (F := Ideal) (m ((c : Thread nD τ).loc main_arg1)) (m ((c : Thread nD τ).loc main_arg2)) :=
  (Glue.keep2_main_v28 (W4 m ρ c)).trans ((W4_dis2 m ρ c).trans (Glue.dis2_again _ _))
theorem W5_arg10 : W5 m ρ c (Proc.devRef .tc main_arg10) = (m ((c : Thread nD τ).loc main_arg10)) :=
  (Glue.keep2_main_arg10 (W4 m ρ c)).trans ((W4_main_arg10 m ρ c).trans (W3_arg10 m ρ c))
theorem W5_arg11 : W5 m ρ c (Proc.devRef .tc main_arg11) = (m ((c : Thread nD τ).loc main_arg11)) :=
  (Glue.keep2_main_arg11 (W4 m ρ c)).trans ((W4_main_arg11 m ρ c).trans (W3_arg11 m ρ c))
theorem W5_arg12 : W5 m ρ c (Proc.devRef .tc main_arg12) = (m ((c : Thread nD τ).loc main_arg12)) :=
  (Glue.keep2_main_arg12 (W4 m ρ c)).trans ((W4_main_arg12 m ρ c).trans (W3_arg12 m ρ c))
theorem W5_arg13 : W5 m ρ c (Proc.devRef .tc main_arg13) = (m ((c : Thread nD τ).loc main_arg13)) :=
  (Glue.keep2_main_arg13 (W4 m ρ c)).trans ((W4_main_arg13 m ρ c).trans (W3_arg13 m ρ c))
theorem W5_arg14 : W5 m ρ c (Proc.devRef .tc main_arg14) = (m ((c : Thread nD τ).loc main_arg14)) :=
  (Glue.keep2_main_arg14 (W4 m ρ c)).trans ((W4_main_arg14 m ρ c).trans (W3_arg14 m ρ c))
theorem W5_agg2 : W5 m ρ c (Proc.devRef .tc main_v57) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Glue.agg2_of (W4 m ρ c) _ _ _ _ _ _ _ _ _ _
    (((W4_main_v1 m ρ c).trans (W3_src m ρ c)).trans (Glue.src_again _))
    (((W4_main_v3 m ρ c).trans (W3_dst m ρ c)).trans (Glue.dst_again _))
    (((W4_main_v26 m ρ c).trans (W3_norm m ρ c)).trans (Glue.norm_again _ _))
    (W4_x2 m ρ c)

/-! ## After the decoder's region -/

/-- The result array is the reference's result: on both sides row r is `decRow` of row r of the second aggregation, of the
    first layer's rows and of the degree column. -/
theorem W6_out : W6 m ρ c (Proc.devRef .tc main_v58) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 8).trans ?_
  rw [Decoder.final (V5 m ρ) Payload.dec_apply c]
  show Decoder.decArr (W5 m ρ c (Proc.devRef .tc main_v57)) (W5 m ρ c (Proc.devRef .tc main_v43)) (W5 m ρ c (Proc.devRef .tc main_v28)) (W5 m ρ c (Proc.devRef .tc main_arg10)) (W5 m ρ c (Proc.devRef .tc main_arg11)) (W5 m ρ c (Proc.devRef .tc main_arg12)) (W5 m ρ c (Proc.devRef .tc main_arg13)) (W5 m ρ c (Proc.devRef .tc main_arg14)) = _
  rw [W5_agg2, W5_x2, W5_dis2, W5_arg10, W5_arg11, W5_arg12, W5_arg13, W5_arg14]
  funext i
  obtain ⟨r, u, rfl⟩ : ∃ (r : Fin 100000) (u : Fin 2), i = ix2 r u := ⟨i 0, i 1, eq_ix2 i⟩
  exact (Cert.ReferenceIdeal.Rows.out_apply _ _ _ _ _ _ _ _ _ _ _ _ _ _ _ r u).symm

/-! ## The run -/

/-- Every weakly fair execution of the idealized kernel terminates with the result at the reference's last stage of the
    argument arrays, and the argument arrays as launched. -/
theorem run_value : θ_run defs (onTc (τ := τ) (main (F := Ideal))) ⟨m, fun _ => 0, ρ⟩ (fun r => ∀ c : Dev nD,
      r.2.mem ((c.tc : Thread nD τ).loc main_v58) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W6_out m ρ c), (h c).2⟩) (run_result m ρ)

end Cert.KernelIdeal.Gen

end
-- ==== Proof.lean ====
/-
  A three-stage graph network tiled over its nodes, against the same network on whole arrays.

  The kernel computes, for 100000 nodes and 1600000 weighted edges: an encoder (two dense layers with a rectifier between
  them) followed by the first graph layer's weight; then per graph layer the aggregation of the neighbours' rows — gathered
  at the source nodes, weighted by d(source) · w · d(target) with d the inverse root of one plus the summed weights at a
  node, and added up at the target nodes —, the self-loop term d² · row, a bias and a rectifier; and at the end a two-layer
  decoder and the softmax of each node's two logits.  The dense stages run in three regions, each tiled into fifty blocks
  of 2000 nodes; the gathers and scatter-adds run between them on whole arrays, exactly as in the reference.

  Over the extended reals the two programs are the same function of the arguments.  Every dense stage acts on one node's
  row at a time, so a block of the kernel's output is the restriction of the whole-array stage to the block's rows, and the
  fifty blocks cover the node axis; a matrix product into a zero accumulator is the sum over the contraction index on both
  sides; a change of float format is the identity; and the reference's second start of the row maximum from minus infinity
  changes nothing.  No distributive or cancellation law is used, so the finiteness of the inputs is never opened.

  The frames of the two kernel programs are the generated ones; the reference's frame is its generated run with the result
  dropped; the idealization rewrote no operation, so there is nothing to preserve.
-/
import proofs.«153621_j16879221473930_2_alg».proof.Defs
import proofs.«153621_j16879221473930_2_alg».proof.Proof.Gen.Kernel
import proofs.«153621_j16879221473930_2_alg».proof.Proof.Gen.Kernel.Skeleton
import proofs.«153621_j16879221473930_2_alg».proof.Proof.Gen.Kernel.Launch
import proofs.«153621_j16879221473930_2_alg».proof.Proof.Gen.Kernel.Points
import proofs.«153621_j16879221473930_2_alg».proof.Proof.Gen.Kernel.Frame
import proofs.«153621_j16879221473930_2_alg».proof.Proof.Gen.KernelIdeal
import proofs.«153621_j16879221473930_2_alg».proof.Proof.Gen.KernelIdeal.Skeleton
import proofs.«153621_j16879221473930_2_alg».proof.Proof.Gen.KernelIdeal.Launch
import proofs.«153621_j16879221473930_2_alg».proof.Proof.Gen.KernelIdeal.Points
import proofs.«153621_j16879221473930_2_alg».proof.Proof.Gen.KernelIdeal.Frame
import proofs.«153621_j16879221473930_2_alg».proof.Proof.Gen.ReferenceIdeal
import proofs.«153621_j16879221473930_2_alg».proof.Proof.Gen.Pre_finite_inputs
import proofs.«153621_j16879221473930_2_alg».proof.Proof.Gen.ReferenceIdeal.Run
import proofs.«153621_j16879221473930_2_alg».proof.Proof.Gen.ReferenceIdeal.Read
import proofs.«153621_j16879221473930_2_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's last stage of the kernel's arguments
    in their result buffers: the kernel by following its buffers through the six segments, the reference by its run. -/
theorem algebraic : Cert.algebraic_KernelIdeal_ReferenceIdeal := by
  intro m ρ m' ρ' _ hagree
  refine ⟨fun c => Cert.ReferenceIdeal.Read.val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq]
  obtain ⟨e0, e1, e2, e3, e4, e5, e6, e7, e8, e9, e10, e11, e12, e13, e14⟩ := hagree c
  rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
